-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v72)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v72) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S2x128x128 .f32) (main_arg6 : FVec F S2x128 .f32) (main_arg7 : FVec F S2x128 .f32) (main_arg8 : FVec F S128x128 .f32) (main_arg9 : FVec F S128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x128 .f32 := Host.absf main_arg5
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg7
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x1600000 32) (main_arg2 : FVec F S1600000 .f32) (main_arg3 : FVec F S2x128x128 .f32) (main_arg4 : FVec F S2x128 .f32) (main_arg5 : FVec F S2x128x128 .f32) (main_arg6 : FVec F S2x128 .f32) (main_arg7 : FVec F S2x128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S2x128x128 .f32 := Host.absf main_arg3
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg4
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S50000x1 : Shape := ⟨2, ![50000, 1]⟩
abbrev S1600000x128 : Shape := ⟨2, ![1600000, 128]⟩
abbrev S1x128x128 : Shape := ⟨3, ![1, 128, 128]⟩
abbrev S1x128 : Shape := ⟨2, ![1, 128]⟩
abbrev S5000x128 : Shape := ⟨2, ![5000, 128]⟩

abbrev nBuf : Space → Nat
  | .hbm => 93
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S2x128x128, .f32⟩
  | .hbm, ⟨4, _⟩ => ⟨S2x128, .f32⟩
  | .hbm, ⟨5, _⟩ => ⟨S2x128x128, .f32⟩
  | .hbm, ⟨6, _⟩ => ⟨S2x128, .f32⟩
  | .hbm, ⟨7, _⟩ => ⟨S2x128, .f32⟩
  | .hbm, ⟨8, _⟩ => ⟨S128x128, .f32⟩
  | .hbm, ⟨9, _⟩ => ⟨S128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S50000, .f32⟩
  | .hbm, ⟨18, _⟩ => ⟨S1600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000x1, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x1, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S50000x128, .f32⟩
  | .hbm, ⟨41, _⟩ => ⟨S1600000x1, .i32⟩
  | .hbm, ⟨42, _⟩ => ⟨S50000x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128x128, .f32⟩
  | .hbm, ⟨47, _⟩ => ⟨S128x128, .f32⟩
  | .hbm, ⟨48, _⟩ => ⟨S128x128, .f32⟩
  | .hbm, ⟨49, _⟩ => ⟨S1x128x128, .f32⟩
  | .hbm, ⟨50, _⟩ => ⟨S128x128, .f32⟩
  | .hbm, ⟨51, _⟩ => ⟨S128x128, .f32⟩
  | .hbm, ⟨52, _⟩ => ⟨S1x128, .f32⟩
  | .hbm, ⟨53, _⟩ => ⟨S128, .f32⟩
  | .hbm, ⟨54, _⟩ => ⟨S1x128, .f32⟩
  | .hbm, ⟨55, _⟩ => ⟨S128, .f32⟩
  | .hbm, ⟨56, _⟩ => ⟨S1x128, .f32⟩
  | .hbm, ⟨57, _⟩ => ⟨S128, .f32⟩
  | .hbm, ⟨58, _⟩ => ⟨S50000x128, .f32⟩
  | .hbm, ⟨59, _⟩ => ⟨S_, .i32⟩
  | .hbm, ⟨60, _⟩ => ⟨S1600000, .i32⟩
  | .hbm, ⟨61, _⟩ => ⟨S1600000, .i1⟩
  | .hbm, ⟨62, _⟩ => ⟨S_, .i32⟩
  | .hbm, ⟨63, _⟩ => ⟨S1600000, .i32⟩
  | .hbm, ⟨64, _⟩ => ⟨S1600000, .i32⟩
  | .hbm, ⟨65, _⟩ => ⟨S1600000, .i32⟩
  | .hbm, ⟨66, _⟩ => ⟨S1600000x1, .i32⟩
  | .hbm, ⟨67, _⟩ => ⟨S1600000x128, .f32⟩
  | .hbm, ⟨68, _⟩ => ⟨S1600000x1, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S50000x128, .f32⟩
  | .hbm, ⟨73, _⟩ => ⟨S1600000x1, .i32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128x128, .f32⟩
  | .hbm, ⟨79, _⟩ => ⟨S128x128, .f32⟩
  | .hbm, ⟨80, _⟩ => ⟨S128x128, .f32⟩
  | .hbm, ⟨81, _⟩ => ⟨S1x128x128, .f32⟩
  | .hbm, ⟨82, _⟩ => ⟨S128x128, .f32⟩
  | .hbm, ⟨83, _⟩ => ⟨S128x128, .f32⟩
  | .hbm, ⟨84, _⟩ => ⟨S1x128, .f32⟩
  | .hbm, ⟨85, _⟩ => ⟨S128, .f32⟩
  | .hbm, ⟨86, _⟩ => ⟨S1x128, .f32⟩
  | .hbm, ⟨87, _⟩ => ⟨S128, .f32⟩
  | .hbm, ⟨88, _⟩ => ⟨S1x128, .f32⟩
  | .hbm, ⟨89, _⟩ => ⟨S128, .f32⟩
  | .hbm, ⟨90, _⟩ => ⟨S50000x128, .f32⟩
  | .hbm, ⟨91, _⟩ => ⟨S128x128, .f32⟩
  | .hbm, ⟨92, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128, .f32⟩
  | .local _ .vmem, ⟨17, _⟩ => ⟨S128x128, .f32⟩
  | .local _ .vmem, ⟨18, _⟩ => ⟨S128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_5 : Ref sig .tc := ⟨.hbm, 59, rfl⟩
abbrev main_v42 : Ref sig .tc := ⟨.hbm, 60, rfl⟩
abbrev main_v43 : Ref sig .tc := ⟨.hbm, 61, rfl⟩
abbrev main_c_6 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem3_0 : DmaSem sig := 26
abbrev cc2_sem3_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S2x128x128_S1x128x128_0_0_0 : S2x128x128.Slices ![0, 0, 0] S1x128x128
  shapeCasts_S1x128x128_S128x128 : S1x128x128.ShapeCasts S128x128
  transposes_S128x128_S128x128_1_0 : S128x128.Transposes [1, 0] S128x128
  slices_S2x128_S1x128_0_0 : S2x128.Slices ![0, 0] S1x128
  shapeCasts_S1x128_S128 : S1x128.ShapeCasts S128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S5000x128 : S1x128.Broadcasts S5000x128
  slices_S2x128x128_S1x128x128_1_0_0 : S2x128x128.Slices ![1, 0, 0] S1x128x128
  slices_S2x128_S1x128_1_0 : S2x128.Slices ![1, 0] S1x128
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S50000x128.size a
  hwx2_3 : ∀ i : grid2.Coords, EltTy.bits .f32 = 32 ∨ (Rect.block (s := S50000x128) S5000x128.size (cc2_transform_3 i) (hinb2_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v34) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v40) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v41) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v60) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v65) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v67) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v69) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v70) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v72) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S2x128x128 : Shape := ⟨3, ![2, 128, 128]⟩
abbrev S2x128 : Shape := ⟨2, ![2, 128]⟩
abbrev S128x128 : Shape := ⟨2, ![128, 128]⟩
abbrev S128 : Shape := ⟨1, ![128]⟩
abbrev S1x1600000 : Shape := ⟨2, ![1, 1600000]⟩
abbrev S1x128x128 : Shape := ⟨3, ![1, 128, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩

abbrev nBuf : Space → Nat
  | .hbm => 139
  | .vmem => 0
  | .smem => 0
  | _ => 0

abbrev hbmTy0_0 (i : Nat) : BufTy := match i % 128 with
  | 0 => ⟨S50000x128, .f32⟩
  | 1 => ⟨S2x1600000, .i32⟩
  | 2 => ⟨S1600000, .f32⟩
  | 3 => ⟨S2x128x128, .f32⟩
  | 4 => ⟨S2x128, .f32⟩
  | 5 => ⟨S2x128x128, .f32⟩
  | 6 => ⟨S2x128, .f32⟩
  | 7 => ⟨S2x128, .f32⟩
  | 8 => ⟨S128x128, .f32⟩
  | 9 => ⟨S128, .f32⟩
  | 10 => ⟨S1x1600000, .i32⟩
  | 11 => ⟨S1600000, .i32⟩
  | 12 => ⟨S1x1600000, .i32⟩
  | 13 => ⟨S1600000, .i32⟩
  | 14 => ⟨S1x128x128, .f32⟩
  | 15 => ⟨S128x128, .f32⟩
  | 16 => ⟨S1x128, .f32⟩
  | 17 => ⟨S128, .f32⟩
  | 18 => ⟨S1x128x128, .f32⟩
  | 19 => ⟨S128x128, .f32⟩
  | 20 => ⟨S1x128, .f32⟩
  | 21 => ⟨S128, .f32⟩
  | 22 => ⟨S1x128, .f32⟩
  | 23 => ⟨S128, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000x128, .f32⟩
  | 33 => ⟨S1600000x1, .f32⟩
  | 34 => ⟨S1600000x128, .f32⟩
  | 35 => ⟨S1600000x128, .f32⟩
  | 36 => ⟨S_, .f32⟩
  | 37 => ⟨S50000x128, .f32⟩
  | 38 => ⟨S1600000x1, .i32⟩
  | 39 => ⟨S50000x128, .f32⟩
  | 40 => ⟨S50000x128, .f32⟩
  | 41 => ⟨S_, .f32⟩
  | 42 => ⟨S1600000, .f32⟩
  | 43 => ⟨S_, .f32⟩
  | 44 => ⟨S50000, .f32⟩
  | 45 => ⟨S1600000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S128x128, .f32⟩
  | 54 => ⟨S50000x128, .f32⟩
  | 55 => ⟨S1x128, .f32⟩
  | 56 => ⟨S50000x128, .f32⟩
  | 57 => ⟨S50000x128, .f32⟩
  | 58 => ⟨S128x128, .f32⟩
  | 59 => ⟨S50000x128, .f32⟩
  | 60 => ⟨S50000x128, .f32⟩
  | 61 => ⟨S1x128, .f32⟩
  | 62 => ⟨S50000x128, .f32⟩
  | 63 => ⟨S50000x128, .f32⟩
  | 64 => ⟨S1x128, .f32⟩
  | 65 => ⟨S50000x128, .f32⟩
  | 66 => ⟨S50000x128, .f32⟩
  | 67 => ⟨S_, .f32⟩
  | 68 => ⟨S50000x128, .f32⟩
  | 69 => ⟨S50000x128, .i1⟩
  | 70 => ⟨S_, .f32⟩
  | 71 => ⟨S50000x128, .f32⟩
  | 72 => ⟨S50000x128, .f32⟩
  | 73 => ⟨S50000x128, .f32⟩
  | 74 => ⟨S1x128x128, .f32⟩
  | 75 => ⟨S128x128, .f32⟩
  | 76 => ⟨S1x128, .f32⟩
  | 77 => ⟨S128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x128, .f32⟩
  | 93 => ⟨S1600000x1, .f32⟩
  | 94 => ⟨S1600000x128, .f32⟩
  | 95 => ⟨S1600000x128, .f32⟩
  | 96 => ⟨S_, .f32⟩
  | 97 => ⟨S50000x128, .f32⟩
  | 98 => ⟨S1600000x1, .i32⟩
  | 99 => ⟨S50000x128, .f32⟩
  | 100 => ⟨S50000x128, .f32⟩
  | 101 => ⟨S_, .f32⟩
  | 102 => ⟨S1600000, .f32⟩
  | 103 => ⟨S_, .f32⟩
  | 104 => ⟨S50000, .f32⟩
  | 105 => ⟨S1600000x1, .i32⟩
  | 106 => ⟨S50000, .f32⟩
  | 107 => ⟨S_, .f32⟩
  | 108 => ⟨S50000, .f32⟩
  | 109 => ⟨S50000, .f32⟩
  | 110 => ⟨S50000x1, .f32⟩
  | 111 => ⟨S50000x128, .f32⟩
  | 112 => ⟨S50000x128, .f32⟩
  | 113 => ⟨S128x128, .f32⟩
  | 114 => ⟨S50000x128, .f32⟩
  | 115 => ⟨S1x128, .f32⟩
  | 116 => ⟨S50000x128, .f32⟩
  | 117 => ⟨S50000x128, .f32⟩
  | 118 => ⟨S128x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S_, .f32⟩
  | _ => ⟨S50000x128, .f32⟩

abbrev hbmTy0_1 (i : Nat) : BufTy := match i % 128 with
  | 0 => ⟨S50000x128, .f32⟩
  | 1 => ⟨S50000x128, .i1⟩
  | 2 => ⟨S_, .f32⟩
  | 3 => ⟨S50000x128, .f32⟩
  | 4 => ⟨S50000x128, .f32⟩
  | 5 => ⟨S50000x128, .f32⟩
  | 6 => ⟨S128x128, .f32⟩
  | 7 => ⟨S50000x128, .f32⟩
  | 8 => ⟨S1x128, .f32⟩
  | 9 => ⟨S50000x128, .f32⟩
  | 10 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_4 : Ref sig .tc := ⟨.hbm, 67, rfl⟩
abbrev main_v51 : Ref sig .tc := ⟨.hbm, 68, rfl⟩
abbrev main_v52 : Ref sig .tc := ⟨.hbm, 69, rfl⟩
abbrev main_cst_5 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_c_6 : Ref sig .tc := ⟨.hbm, 84, rfl⟩
abbrev main_v66 : Ref sig .tc := ⟨.hbm, 85, rfl⟩
abbrev main_v67 : Ref sig .tc := ⟨.hbm, 86, rfl⟩
abbrev main_c_7 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_8 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_9 : Ref sig .tc := ⟨.hbm, 101, rfl⟩
abbrev main_v80 : Ref sig .tc := ⟨.hbm, 102, rfl⟩
abbrev main_cst_10 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_11 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_12 : Ref sig .tc := ⟨.hbm, 127, rfl⟩
abbrev main_v103 : Ref sig .tc := ⟨.hbm, 128, rfl⟩
abbrev main_v104 : Ref sig .tc := ⟨.hbm, 129, rfl⟩
abbrev main_cst_13 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_1_0_0 : S2x128x128.Slices ![1, 0, 0] S1x128x128
  slices_S2x128_S1x128_1_0 : S2x128.Slices ![1, 0] S1x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The idealized kernel's run with its result named.

  The program is six segments: a stretch of host operations, the first layer's region, a second stretch, the second
  layer's region, a third stretch, the projection's region.  Every weakly fair execution terminates without a fault, and
  in the final state every unscoped buffer holds what the fold of the six segments over the launch memory gives
  (`Gen.W6`): in particular the result buffer holds the fold's value there, and each argument array is as launched.
-/
import proofs.«123143_j50818053046585_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the segments' fold and the arguments as launched. -/
theorem run : θ_run defs (onTc (τ := τ) (main (F := F))) ⟨m, fun _ => 0, ρ⟩ (fun r => ∀ c : Dev nD,
      r.2.mem ((c.tc : Thread nD τ).loc main_v72) = W6 m ρ c (Proc.devRef .tc main_v72)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v72 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.KRun

end
-- ==== Proof.LibStretch.lean ====
/-
  Reading a program's host operations stretch by stretch.  The buffer contents after a list of host operations is a fold
  of the operations over the contents the list is entered with; over two stretches run one after the other it is the
  second stretch's fold over the first's (`after_append`).  So a long host program is read one short stretch at a time,
  each stretch over ANY contents V: which buffers it leaves as they were (`unwritten`), and what it writes into the
  buffers a later stretch reads, as the operations' term of what it finds (`read_stretch`).  Short stretches matter where
  operations carry casts between a buffer's recorded type and its literal type (the operations of an outlined function):
  many of them nested under one comparison are costly, two or three are not.
-/
import Idealize.ShloMosaic.Lib.StableHlo.Run

namespace Cert.Stretch

open Idealize.ShloMosaic Idealize.ShloMosaic.StableHlo

/-- The contents after two stretches run one after the other: the second stretch's fold over the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

end Cert.Stretch

/-- `unwritten ops` closes `after ops V b = V b` for a literal stretch `ops` (named by an identifier that unfolds to the
    list) and a literal buffer `b` none of its operations writes: each operation's written buffer is another reference. -/
macro "unwritten" ops:ident : tactic =>
  `(tactic| exact Idealize.ShloMosaic.StableHlo.after_of_forall_not_mem _ _ (List.forall_iff_forall_mem.mp (by
      simp only [$ops:ident, List.Forall, Idealize.ShloMosaic.StableHlo.nullary_writes, Idealize.ShloMosaic.StableHlo.unary_writes, Idealize.ShloMosaic.StableHlo.binary_writes, Idealize.ShloMosaic.StableHlo.ternary_writes, Idealize.ShloMosaic.StableHlo.quaternary_writes, Idealize.ShloMosaic.StableHlo.reshape_writes, Idealize.ShloMosaic.StableHlo.binaryIndexed_writes, Finset.mem_singleton]
      repeat' apply And.intro
      all_goals exact Idealize.ShloMosaic.StableHlo.devRef_ne_of_ne (by decide))))

/-- `read_stretch` closes `after ops V b = t` for a literal stretch and a buffer it writes, `t` the operations' term over
    `V` at the buffers the stretch reads: every operation's result at its own buffer is its function's value, at any other
    buffer what was there (one pass over the stretch); what is left is the same term on both sides. -/
macro "read_stretch" : tactic =>
  `(tactic| ((open Idealize.ShloMosaic.StableHlo in after_results_simp) <;> rfl))

/-- The same, one rewrite per operation: for a stretch of a few operations. -/
macro "read_stretch_small" : tactic =>
  `(tactic| ((open Idealize.ShloMosaic.StableHlo in after_results) <;> rfl))
-- ==== Proof.KernelHost.lean ====
/-
  What the kernel program's three stretches of host operations compute, each as a function of the buffer contents the
  stretch is entered with.

  From the edge list e : [2, E] the source row s and the target row d are its two rows.  A negative source is shifted by
  the number of nodes before it selects a row.  For features x, edge weights w and the reciprocal column r:
      agg(x)   = scatter-sum at d of (x[s] · w) + x          (incoming messages plus the node itself)
      cnt      = scatter-sum at d of ones + 1                (in-degree plus one)
      r        = 1 / cnt, as a column
      neigh(x) = agg(x) · r, the column spread over the 128 features.
  Layer l's weights and biases are slice l of the stacked arrays, the weights transposed.
-/
import proofs.«123143_j50818053046585_1_alg».proof.Proof.Gen.KernelIdeal.Launch
import proofs.«123143_j50818053046585_1_alg».proof.Proof.LibStretch
import Idealize.ShloMosaic.PureOps.Ideal

set_option maxRecDepth 16384

noncomputable section

namespace Cert.KernelIdeal.KHost

open Cert.KernelIdeal Cert.KernelIdeal.Gen
open Idealize.ShloMosaic Idealize.ShloMosaic.TcCoe Idealize.ShloMosaic.StableHlo

/-- Row l of the edge list, as a flat vector. -/
def srcRow (e : IVec S2x1600000 32) : IVec S1600000 32 :=
  shapeCast S1600000 (extractStridedSlice S1x1600000 ![0, 0] e slices_S2x1600000_S1x1600000_0_0) shapeCasts_S1x1600000_S1600000
def dstRow (e : IVec S2x1600000 32) : IVec S1600000 32 :=
  shapeCast S1600000 (extractStridedSlice S1x1600000 ![1, 0] e slices_S2x1600000_S1x1600000_1_0) shapeCasts_S1x1600000_S1600000

/-- The source column the gather reads: a negative source shifted by the number of nodes. -/
def srcCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 50000#32))) s)

/-- The target column the scatters write at. -/
def dstCol (d : IVec S1600000 32) : IVec S1600000x1 32 :=
  broadcastInDim S1600000x1 ![0] bcast_S1600000_S1600000x1_0 d

/-- Incoming messages summed at their targets, plus the node's own features. -/
def agg (x : FVec Ideal S50000x128 .f32) (s d : IVec S1600000 32) (w : FVec Ideal S1600000 .f32) : FVec Ideal S50000x128 .f32 :=
  addf (Host.scatterAdd scatter_S50000x128_S1600000x1_S1600000x128_1_0_0_1
      (broadcastInDim S50000x128 ![] bcast_S_S50000x128 (constant S_ .f32 0x00000000#32)) (dstCol d)
      (mulf (Host.gather gather_S50000x128_S1600000x1_S1600000x128_1_0_n_n_0_1_1128 x (srcCol s))
        (broadcastInDim S1600000x128 ![0, 1] bcast_S1600000x1_S1600000x128_0_1
          (broadcastInDim S1600000x1 ![0] bcast_S1600000_S1600000x1_0 w)))) x

/-- In-degree plus one. -/
def cnt (d : IVec S1600000 32) : FVec Ideal S50000 .f32 :=
  addf (Host.scatterAdd scatter_S50000_S1600000x1_S1600000_n_0_0_1
      (broadcastInDim S50000 ![] bcast_S_S50000 (constant S_ .f32 0x00000000#32)) (dstCol d)
      (broadcastInDim S1600000 ![] bcast_S_S1600000 (constant S_ .f32 0x3F800000#32)))
    (broadcastInDim S50000 ![] bcast_S_S50000 (constant S_ .f32 0x3F800000#32))

/-- The reciprocal of the count, as a column. -/
def recipCol (d : IVec S1600000 32) : FVec Ideal S50000x1 .f32 :=
  broadcastInDim S50000x1 ![0] bcast_S50000_S50000x1_0
    (Host.divf (broadcastInDim S50000 ![] bcast_S_S50000 (constant S_ .f32 0x3F800000#32)) (cnt d))

/-- The neighbour features: the aggregate times a column spread over the features. -/
def neigh (x : FVec Ideal S50000x128 .f32) (s d : IVec S1600000 32) (w : FVec Ideal S1600000 .f32)
    (r : FVec Ideal S50000x1 .f32) : FVec Ideal S50000x128 .f32 :=
  mulf (agg x s d w) (broadcastInDim S50000x128 ![0, 1] bcast_S50000x1_S50000x128_0_1 r)

/-- Slice 0 / slice 1 of a stacked weight, transposed; slice 0 / slice 1 of a stacked bias. -/
def wT0 (W : FVec Ideal S2x128x128 .f32) : FVec Ideal S128x128 .f32 :=
  transpose S128x128 [1, 0] (shapeCast S128x128 (extractStridedSlice S1x128x128 ![0, 0, 0] W slices_S2x128x128_S1x128x128_0_0_0) shapeCasts_S1x128x128_S128x128) transposes_S128x128_S128x128_1_0
def wT1 (W : FVec Ideal S2x128x128 .f32) : FVec Ideal S128x128 .f32 :=
  transpose S128x128 [1, 0] (shapeCast S128x128 (extractStridedSlice S1x128x128 ![1, 0, 0] W slices_S2x128x128_S1x128x128_1_0_0) shapeCasts_S1x128x128_S128x128) transposes_S128x128_S128x128_1_0
def bRow0 (B : FVec Ideal S2x128 .f32) : FVec Ideal S128 .f32 :=
  shapeCast S128 (extractStridedSlice S1x128 ![0, 0] B slices_S2x128_S1x128_0_0) shapeCasts_S1x128_S128
def bRow1 (B : FVec Ideal S2x128 .f32) : FVec Ideal S128 .f32 :=
  shapeCast S128 (extractStridedSlice S1x128 ![1, 0] B slices_S2x128_S1x128_1_0) shapeCasts_S1x128_S128

variable (V : Valuation τ sig (Elt Ideal))

/-! ## The first stretch -/

theorem s0_v1 : after (hostOps0 (F := Ideal)) V (Proc.devRef .tc main_v1) = srcRow (V (Proc.devRef .tc main_arg1)) := by
  unfold srcRow; read_stretch
theorem s0_v3 : after (hostOps0 (F := Ideal)) V (Proc.devRef .tc main_v3) = dstRow (V (Proc.devRef .tc main_arg1)) := by
  unfold dstRow; read_stretch
theorem s0_v12 : after (hostOps0 (F := Ideal)) V (Proc.devRef .tc main_v12) = recipCol (dstRow (V (Proc.devRef .tc main_arg1))) := by
  unfold recipCol cnt dstCol dstRow; read_stretch
theorem s0_v28 : after (hostOps0 (F := Ideal)) V (Proc.devRef .tc main_v28)
    = neigh (V (Proc.devRef .tc main_arg0)) (srcRow (V (Proc.devRef .tc main_arg1))) (dstRow (V (Proc.devRef .tc main_arg1)))
        (V (Proc.devRef .tc main_arg2)) (recipCol (dstRow (V (Proc.devRef .tc main_arg1)))) := by
  unfold neigh agg recipCol cnt srcCol dstCol srcRow dstRow; read_stretch

theorem s0_v31 : after (hostOps0 (F := Ideal)) V (Proc.devRef .tc main_v31) = wT0 (V (Proc.devRef .tc main_arg3)) := by
  unfold wT0; read_stretch
theorem s0_v34 : after (hostOps0 (F := Ideal)) V (Proc.devRef .tc main_v34) = wT0 (V (Proc.devRef .tc main_arg5)) := by
  unfold wT0; read_stretch
theorem s0_v36 : after (hostOps0 (F := Ideal)) V (Proc.devRef .tc main_v36) = bRow0 (V (Proc.devRef .tc main_arg4)) := by
  unfold bRow0; read_stretch
theorem s0_v38 : after (hostOps0 (F := Ideal)) V (Proc.devRef .tc main_v38) = bRow0 (V (Proc.devRef .tc main_arg6)) := by
  unfold bRow0; read_stretch
theorem s0_v40 : after (hostOps0 (F := Ideal)) V (Proc.devRef .tc main_v40) = bRow0 (V (Proc.devRef .tc main_arg7)) := by
  unfold bRow0; read_stretch

/-- No operation of the first stretch writes an argument array. -/
theorem s0_arg0 : after (hostOps0 (F := Ideal)) V (Proc.devRef .tc main_arg0) = V (Proc.devRef .tc main_arg0) := by unwritten hostOps0
theorem s0_arg2 : after (hostOps0 (F := Ideal)) V (Proc.devRef .tc main_arg2) = V (Proc.devRef .tc main_arg2) := by unwritten hostOps0
theorem s0_arg3 : after (hostOps0 (F := Ideal)) V (Proc.devRef .tc main_arg3) = V (Proc.devRef .tc main_arg3) := by unwritten hostOps0
theorem s0_arg4 : after (hostOps0 (F := Ideal)) V (Proc.devRef .tc main_arg4) = V (Proc.devRef .tc main_arg4) := by unwritten hostOps0
theorem s0_arg5 : after (hostOps0 (F := Ideal)) V (Proc.devRef .tc main_arg5) = V (Proc.devRef .tc main_arg5) := by unwritten hostOps0
theorem s0_arg6 : after (hostOps0 (F := Ideal)) V (Proc.devRef .tc main_arg6) = V (Proc.devRef .tc main_arg6) := by unwritten hostOps0
theorem s0_arg7 : after (hostOps0 (F := Ideal)) V (Proc.devRef .tc main_arg7) = V (Proc.devRef .tc main_arg7) := by unwritten hostOps0
theorem s0_arg8 : after (hostOps0 (F := Ideal)) V (Proc.devRef .tc main_arg8) = V (Proc.devRef .tc main_arg8) := by unwritten hostOps0
theorem s0_arg9 : after (hostOps0 (F := Ideal)) V (Proc.devRef .tc main_arg9) = V (Proc.devRef .tc main_arg9) := by unwritten hostOps0

/-! ## The second stretch: the same aggregation over the first layer's output, and layer 1's parameters -/

theorem s1_v57 : after (hostOps1 (F := Ideal)) V (Proc.devRef .tc main_v57)
    = neigh (V (Proc.devRef .tc main_v41)) (V (Proc.devRef .tc main_v1)) (V (Proc.devRef .tc main_v3))
        (V (Proc.devRef .tc main_arg2)) (V (Proc.devRef .tc main_v12)) := by
  unfold neigh agg srcCol dstCol; read_stretch
theorem s1_v60 : after (hostOps1 (F := Ideal)) V (Proc.devRef .tc main_v60) = wT1 (V (Proc.devRef .tc main_arg3)) := by
  unfold wT1; read_stretch
theorem s1_v63 : after (hostOps1 (F := Ideal)) V (Proc.devRef .tc main_v63) = wT1 (V (Proc.devRef .tc main_arg5)) := by
  unfold wT1; read_stretch
theorem s1_v65 : after (hostOps1 (F := Ideal)) V (Proc.devRef .tc main_v65) = bRow1 (V (Proc.devRef .tc main_arg4)) := by
  unfold bRow1; read_stretch
theorem s1_v67 : after (hostOps1 (F := Ideal)) V (Proc.devRef .tc main_v67) = bRow1 (V (Proc.devRef .tc main_arg6)) := by
  unfold bRow1; read_stretch
theorem s1_v69 : after (hostOps1 (F := Ideal)) V (Proc.devRef .tc main_v69) = bRow1 (V (Proc.devRef .tc main_arg7)) := by
  unfold bRow1; read_stretch
theorem s1_v41 : after (hostOps1 (F := Ideal)) V (Proc.devRef .tc main_v41) = V (Proc.devRef .tc main_v41) := by unwritten hostOps1
theorem s1_arg8 : after (hostOps1 (F := Ideal)) V (Proc.devRef .tc main_arg8) = V (Proc.devRef .tc main_arg8) := by unwritten hostOps1
theorem s1_arg9 : after (hostOps1 (F := Ideal)) V (Proc.devRef .tc main_arg9) = V (Proc.devRef .tc main_arg9) := by unwritten hostOps1

/-! ## The third stretch: the projection's weight, transposed -/

theorem s2_v71 : after (hostOps2 (F := Ideal)) V (Proc.devRef .tc main_v71)
    = transpose S128x128 [1, 0] (V (Proc.devRef .tc main_arg8)) transposes_S128x128_S128x128_1_0 := by read_stretch_small
theorem s2_v70 : after (hostOps2 (F := Ideal)) V (Proc.devRef .tc main_v70) = V (Proc.devRef .tc main_v70) := by unwritten hostOps2
theorem s2_arg9 : after (hostOps2 (F := Ideal)) V (Proc.devRef .tc main_arg9) = V (Proc.devRef .tc main_arg9) := by unwritten hostOps2

end Cert.KernelIdeal.KHost

end
-- ==== Proof.KernelFold.lean ====
/-
  The contents of the buffers each region of the kernel program reads, in terms of the launch memory.

  The run is a fold of six segments over the launch memory.  A stretch of host operations changes only the buffers it
  writes; a region changes only its output array.  So each array a region reads is either an argument as launched, or a
  stretch's value of earlier contents, or an earlier region's output.
-/
import proofs.«123143_j50818053046585_1_alg».proof.Proof.Gen.KernelIdeal.Frame
import proofs.«123143_j50818053046585_1_alg».proof.Proof.KernelHost

set_option maxRecDepth 16384

noncomputable section

namespace Cert.KernelIdeal.KFold

open Cert.KernelIdeal Cert.KernelIdeal.Gen Cert.KernelIdeal.KHost
open Idealize.ShloMosaic Idealize.ShloMosaic.TcCoe Idealize.ShloMosaic.StableHlo

variable (m : (ℓ : Loc nD τ sig) → Buf (Elt Ideal) ℓ) (ρ : Dev nD → PrngReg) (c : Dev nD)

/-! ## What the first region finds -/

theorem e1_arg0 : W1 m ρ c (Proc.devRef .tc main_arg0) = m ((c : Thread nD τ).loc main_arg0) := s0_arg0 (W0 m ρ c)
theorem e1_v28 : W1 m ρ c (Proc.devRef .tc main_v28)
    = neigh (m ((c : Thread nD τ).loc main_arg0)) (srcRow (m ((c : Thread nD τ).loc main_arg1))) (dstRow (m ((c : Thread nD τ).loc main_arg1)))
        (m ((c : Thread nD τ).loc main_arg2)) (recipCol (dstRow (m ((c : Thread nD τ).loc main_arg1)))) := s0_v28 (W0 m ρ c)
theorem e1_v31 : W1 m ρ c (Proc.devRef .tc main_v31) = wT0 (m ((c : Thread nD τ).loc main_arg3)) := s0_v31 (W0 m ρ c)
theorem e1_v34 : W1 m ρ c (Proc.devRef .tc main_v34) = wT0 (m ((c : Thread nD τ).loc main_arg5)) := s0_v34 (W0 m ρ c)
theorem e1_v36 : W1 m ρ c (Proc.devRef .tc main_v36) = bRow0 (m ((c : Thread nD τ).loc main_arg4)) := s0_v36 (W0 m ρ c)
theorem e1_v38 : W1 m ρ c (Proc.devRef .tc main_v38) = bRow0 (m ((c : Thread nD τ).loc main_arg6)) := s0_v38 (W0 m ρ c)
theorem e1_v40 : W1 m ρ c (Proc.devRef .tc main_v40) = bRow0 (m ((c : Thread nD τ).loc main_arg7)) := s0_v40 (W0 m ρ c)

/-! ## What the first region leaves alone -/

theorem e2_v1 : W2 m ρ c (Proc.devRef .tc main_v1) = srcRow (m ((c : Thread nD τ).loc main_arg1)) :=
  (W2_of_ne m ρ c main_v1 (by decide)).trans (s0_v1 (W0 m ρ c))
theorem e2_v3 : W2 m ρ c (Proc.devRef .tc main_v3) = dstRow (m ((c : Thread nD τ).loc main_arg1)) :=
  (W2_of_ne m ρ c main_v3 (by decide)).trans (s0_v3 (W0 m ρ c))
theorem e2_v12 : W2 m ρ c (Proc.devRef .tc main_v12) = recipCol (dstRow (m ((c : Thread nD τ).loc main_arg1))) :=
  (W2_of_ne m ρ c main_v12 (by decide)).trans (s0_v12 (W0 m ρ c))
theorem e2_arg2 : W2 m ρ c (Proc.devRef .tc main_arg2) = m ((c : Thread nD τ).loc main_arg2) :=
  (W2_of_ne m ρ c main_arg2 (by decide)).trans (s0_arg2 (W0 m ρ c))
theorem e2_arg3 : W2 m ρ c (Proc.devRef .tc main_arg3) = m ((c : Thread nD τ).loc main_arg3) :=
  (W2_of_ne m ρ c main_arg3 (by decide)).trans (s0_arg3 (W0 m ρ c))
theorem e2_arg4 : W2 m ρ c (Proc.devRef .tc main_arg4) = m ((c : Thread nD τ).loc main_arg4) :=
  (W2_of_ne m ρ c main_arg4 (by decide)).trans (s0_arg4 (W0 m ρ c))
theorem e2_arg5 : W2 m ρ c (Proc.devRef .tc main_arg5) = m ((c : Thread nD τ).loc main_arg5) :=
  (W2_of_ne m ρ c main_arg5 (by decide)).trans (s0_arg5 (W0 m ρ c))
theorem e2_arg6 : W2 m ρ c (Proc.devRef .tc main_arg6) = m ((c : Thread nD τ).loc main_arg6) :=
  (W2_of_ne m ρ c main_arg6 (by decide)).trans (s0_arg6 (W0 m ρ c))
theorem e2_arg7 : W2 m ρ c (Proc.devRef .tc main_arg7) = m ((c : Thread nD τ).loc main_arg7) :=
  (W2_of_ne m ρ c main_arg7 (by decide)).trans (s0_arg7 (W0 m ρ c))
theorem e2_arg8 : W2 m ρ c (Proc.devRef .tc main_arg8) = m ((c : Thread nD τ).loc main_arg8) :=
  (W2_of_ne m ρ c main_arg8 (by decide)).trans (s0_arg8 (W0 m ρ c))
theorem e2_arg9 : W2 m ρ c (Proc.devRef .tc main_arg9) = m ((c : Thread nD τ).loc main_arg9) :=
  (W2_of_ne m ρ c main_arg9 (by decide)).trans (s0_arg9 (W0 m ρ c))

/-! ## What the second region finds, given the first region's output X -/

theorem e3_v41 : W3 m ρ c (Proc.devRef .tc main_v41) = W2 m ρ c (Proc.devRef .tc main_v41) := s1_v41 (W2 m ρ c)
theorem e3_v57 : W3 m ρ c (Proc.devRef .tc main_v57)
    = neigh (W2 m ρ c (Proc.devRef .tc main_v41)) (srcRow (m ((c : Thread nD τ).loc main_arg1))) (dstRow (m ((c : Thread nD τ).loc main_arg1)))
        (m ((c : Thread nD τ).loc main_arg2)) (recipCol (dstRow (m ((c : Thread nD τ).loc main_arg1)))) := by
  refine (s1_v57 (W2 m ρ c)).trans ?_
  rw [e2_v1, e2_v3, e2_arg2, e2_v12]
theorem e3_v60 : W3 m ρ c (Proc.devRef .tc main_v60) = wT1 (m ((c : Thread nD τ).loc main_arg3)) := by
  refine (s1_v60 (W2 m ρ c)).trans ?_; rw [e2_arg3]
theorem e3_v63 : W3 m ρ c (Proc.devRef .tc main_v63) = wT1 (m ((c : Thread nD τ).loc main_arg5)) := by
  refine (s1_v63 (W2 m ρ c)).trans ?_; rw [e2_arg5]
theorem e3_v65 : W3 m ρ c (Proc.devRef .tc main_v65) = bRow1 (m ((c : Thread nD τ).loc main_arg4)) := by
  refine (s1_v65 (W2 m ρ c)).trans ?_; rw [e2_arg4]
theorem e3_v67 : W3 m ρ c (Proc.devRef .tc main_v67) = bRow1 (m ((c : Thread nD τ).loc main_arg6)) := by
  refine (s1_v67 (W2 m ρ c)).trans ?_; rw [e2_arg6]
theorem e3_v69 : W3 m ρ c (Proc.devRef .tc main_v69) = bRow1 (m ((c : Thread nD τ).loc main_arg7)) := by
  refine (s1_v69 (W2 m ρ c)).trans ?_; rw [e2_arg7]

/-! ## What the third region finds, given the second region's output -/

theorem e5_v70 : W5 m ρ c (Proc.devRef .tc main_v70) = W4 m ρ c (Proc.devRef .tc main_v70) := s2_v70 (W4 m ρ c)
theorem e4_arg8 : W4 m ρ c (Proc.devRef .tc main_arg8) = m ((c : Thread nD τ).loc main_arg8) :=
  (W4_of_ne m ρ c main_arg8 (by decide)).trans ((s1_arg8 (W2 m ρ c)).trans (e2_arg8 m ρ c))
theorem e4_arg9 : W4 m ρ c (Proc.devRef .tc main_arg9) = m ((c : Thread nD τ).loc main_arg9) :=
  (W4_of_ne m ρ c main_arg9 (by decide)).trans ((s1_arg9 (W2 m ρ c)).trans (e2_arg9 m ρ c))
theorem e5_v71 : W5 m ρ c (Proc.devRef .tc main_v71)
    = transpose S128x128 [1, 0] (m ((c : Thread nD τ).loc main_arg8)) transposes_S128x128_S128x128_1_0 := by
  refine (s2_v71 (W4 m ρ c)).trans ?_; rw [e4_arg8]
theorem e5_arg9 : W5 m ρ c (Proc.devRef .tc main_arg9) = m ((c : Thread nD τ).loc main_arg9) :=
  (s2_arg9 (W4 m ρ c)).trans (e4_arg9 m ρ c)

end Cert.KernelIdeal.KFold

end
-- ==== Proof.Spec.lean ====
/-
  The functions both programs compute, entry by entry, over the extended reals.

  A dense layer of the network takes the node features x : [N, 128], the aggregated neighbour features h : [N, 128],
  two weight matrices already transposed (so entry (k, q) multiplies column k of the features into output column q),
  and three bias rows.  Entry (p, q) of its output is the leaky rectifier (slope 1/5 below zero) of
      Σ_k x(p,k)·S(k,q) + bs(q) + Σ_k h(p,k)·T(k,q) + bn(q) + b(q),
  the five terms added in this order.  The closing projection is Σ_k x(p,k)·T(k,q) + b(q).

  The neighbour features are a sum over incoming edges plus the node itself, averaged by the in-degree plus one.  One
  program divides by that count, the other multiplies by its reciprocal; the two agree on every extended real because
  the count is a natural number plus one, hence a nonzero real (`mul_recip_eq_div`).
-/
import Idealize.ShloMosaic.Lib.ValueIdx
import Idealize.ShloMosaic.PureOps.Ideal.Laws

noncomputable section

namespace Cert.Spec

open Idealize.ShloMosaic Idealize.ShloMosaic.ValueIdx

/-- The leaky rectifier as both programs spell it: where v > 0 keep v, elsewhere the slope word times v. -/
def leaky (v : EReal) : EReal :=
  Scalar.select (FloatOps.cmpf (F := Ideal) (φ := .f32) .ogt v (Ideal.ofBits .f32 0x00000000#32)) v
    (Ideal.ofBits .f32 0x3E4CCCCD#32 * v)

variable {N : ℕ}

/-- One dense layer: features x, neighbour features h, transposed weights S and T, bias rows bs, bn, b. -/
def layerOut (x h : (⟨2, ![N, 128]⟩ : Shape).Idx → EReal) (S T : (⟨2, ![128, 128]⟩ : Shape).Idx → EReal)
    (bs bn b : (⟨1, ![128]⟩ : Shape).Idx → EReal) : (⟨2, ![N, 128]⟩ : Shape).Idx → EReal :=
  fun i => leaky ((((∑ k : Fin 128, x (ix2 (i 0) k) * S (ix2 k (i 1))) + bs (ix1 (i 1)))
    + ∑ k : Fin 128, h (ix2 (i 0) k) * T (ix2 k (i 1))) + bn (ix1 (i 1)) + b (ix1 (i 1)))

/-- The closing projection. -/
def linOut (x : (⟨2, ![N, 128]⟩ : Shape).Idx → EReal) (T : (⟨2, ![128, 128]⟩ : Shape).Idx → EReal)
    (b : (⟨1, ![128]⟩ : Shape).Idx → EReal) : (⟨2, ![N, 128]⟩ : Shape).Idx → EReal :=
  fun i => (∑ k : Fin 128, x (ix2 (i 0) k) * T (ix2 k (i 1))) + b (ix1 (i 1))

/-- A finite sum of copies of a real is a real. -/
theorem sum_const_real {ι : Type} (s : Finset ι) (r : ℝ) : ∑ _j ∈ s, ((r : ℝ) : EReal) = (((s.card : ℝ) * r : ℝ) : EReal) := by
  classical
  induction s using Finset.induction_on with
  | empty => simp
  | insert a s ha ih =>
    rw [Finset.sum_insert ha, ih, Finset.card_insert_of_notMem ha, ← EReal.coe_add]
    congr 1
    push_cast
    ring

/-- Multiplying by the reciprocal of a nonzero real is dividing by it, for every extended real. -/
theorem mul_recip_eq_div (a : EReal) {c : ℝ} (hc : c ≠ 0) (one : EReal) (h1 : one = ((1 : ℝ) : EReal)) :
    a * Ideal.div one (c : EReal) = Ideal.div a (c : EReal) := by
  rw [Ideal.div_coe hc, Ideal.div_coe hc, h1, ← EReal.coe_mul, one_mul]

end Cert.Spec

end
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LayerBody.lean ====
/-
  What each of the three kernel bodies computes at one entry (p, q) of its block of 5000 rows, over the extended reals.

  The two layer bodies form two products of a block of rows with a 128 × 128 matrix, each accumulated into zero (a change
  of float format on the way is the identity on the extended reals), add three bias rows spread over the block's rows,
  in the order  product, bias, product, bias, bias,  and apply the leaky rectifier.  The closing body forms one product
  and adds one bias row.  A product at (p, q) is row p of the block against column q of the matrix; a spread bias row at
  (p, q) is its entry q.
-/
import proofs.«123143_j50818053046585_1_alg».proof.Proof.Gen.KernelIdeal.Skeleton
import proofs.«123143_j50818053046585_1_alg».proof.Proof.Spec
import proofs.«123143_j50818053046585_1_alg».proof.Proof.LibMatmulIx
import Idealize.ShloMosaic.Lib.ValueIdx
import Idealize.ShloMosaic.Lib.ValueLayout
import Idealize.ShloMosaic.Lib.Pipeline.Value

noncomputable section

namespace Cert.KernelIdeal.RegionValue

open Idealize.ShloMosaic Idealize.ShloMosaic.ValueIdx
open Cert.KernelIdeal Cert.KernelIdeal.Gen

/-- The product of a [5000,128] block of rows with a [128,128] matrix, accumulated into zero, at (p, q): row p of the
    block against column q of the matrix. -/
theorem blockProduct_at (l : FVec Ideal S5000x128 .bf16) (r : FVec Ideal S128x128 .bf16) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) :=
  MatmulIx.matmul_zero_ix2 dot_S5000x128_S128x128_S5000x128_1_0_0_1_n_n (by decide) (by decide)
    (fun _ _ => rfl) (fun _ _ => rfl) (fun _ _ => rfl) (fun _ _ => rfl) none l r p q

/-- A bias row of 128 entries laid as one row and repeated down the 5000 rows of a block, at (p, q): its entry q. -/
theorem biasRows_at (v : FVec Ideal S128 .f32) (p : Fin 5000) (q : Fin 128) :
    broadcastTo S5000x128 (shapeCast S1x128 v shapeCasts_S128_S1x128) broadcasts_S1x128_S5000x128 (ix2 p q) = v (ix1 q) :=
  (broadcastTo_1b_ab_apply _ broadcasts_S1x128_S5000x128 p q).trans (shapeCast_a_1a_apply v shapeCasts_S128_S1x128 0 q)

/-- The first layer's body at (p, q) of a block: the leaky rectifier of the five terms added left to right. -/
theorem layerBody0_at (x h : Vec Ideal S5000x128 .f32) (S T : Vec Ideal S128x128 .f32) (bs bn b : Vec Ideal S128 .f32)
    (p : Fin 5000) (q : Fin 128) :
    k0_pay1 (F := Ideal) x h S T bs bn b (ix2 p q)
      = Spec.leaky ((((∑ k : Fin 128, x (ix2 p k) * S (ix2 k q)) + bs (ix1 q))
          + ∑ k : Fin 128, h (ix2 p k) * T (ix2 k q)) + bn (ix1 q) + b (ix1 q)) := by
  unfold k0_pay1
  simp only [shapeCast_self]
  simp only [select_apply, cmpf_apply, mulf_apply, addf_apply, broadcast_apply, blockProduct_at, biasRows_at, truncf_apply]
  rfl

/-- The second layer's body at (p, q) of a block: the same five terms and the same rectifier. -/
theorem layerBody1_at (x h : Vec Ideal S5000x128 .f32) (S T : Vec Ideal S128x128 .f32) (bs bn b : Vec Ideal S128 .f32)
    (p : Fin 5000) (q : Fin 128) :
    k1_pay1 (F := Ideal) x h S T bs bn b (ix2 p q)
      = Spec.leaky ((((∑ k : Fin 128, x (ix2 p k) * S (ix2 k q)) + bs (ix1 q))
          + ∑ k : Fin 128, h (ix2 p k) * T (ix2 k q)) + bn (ix1 q) + b (ix1 q)) := by
  unfold k1_pay1
  simp only [shapeCast_self]
  simp only [select_apply, cmpf_apply, mulf_apply, addf_apply, broadcast_apply, blockProduct_at, biasRows_at, truncf_apply]
  rfl

/-- The closing projection's body at (p, q) of a block: one product and one bias. -/
theorem linearBody_at (x : Vec Ideal S5000x128 .f32) (T : Vec Ideal S128x128 .f32) (b : Vec Ideal S128 .f32)
    (p : Fin 5000) (q : Fin 128) :
    k2_pay1 (F := Ideal) x T b (ix2 p q) = (∑ k : Fin 128, x (ix2 p k) * T (ix2 k q)) + b (ix1 q) := by
  unfold k2_pay1
  simp only [shapeCast_self]
  simp only [addf_apply, blockProduct_at, biasRows_at, truncf_apply]

end Cert.KernelIdeal.RegionValue

end
-- ==== Proof.RegionValue0.lean ====
/-
  The array the first layer's region leaves: every entry of the [50000,128] output is the layer's function of the
  arrays the region finds.

  The region visits ten points.  At point t the two row windows hold rows 5000·t … 5000·t + 4999 of their arrays, the
  weights and the bias rows are held whole, and the body's result for those rows is written back to the same rows of
  the output.  So what point t writes is the restriction of the layer's whole-array function to its rows, the ten row
  blocks cover the output (row r lies in the block of point r / 5000), and the output ends at that function.
-/
import proofs.«123143_j50818053046585_1_alg».proof.Proof.Gen.KernelIdeal.Frame
import proofs.«123143_j50818053046585_1_alg».proof.Proof.Spec
import proofs.«123143_j50818053046585_1_alg».proof.Proof.LayerBody
import Idealize.ShloMosaic.Lib.ValueIdx
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets2_0 : (![0, 0] : Fin 2 → Nat) = fun _ => 0 := funext fun a => by fin_cases a <;> rfl
theorem zeroOffsets1_0 : (![0] : Fin 1 → Nat) = fun _ => 0 := funext fun a => by fin_cases a <;> rfl

/-- The block indices over the ten points: the row windows (features, neighbour features, output) are at block t of
    their rows, the weights and the bias rows at their one block. -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 1) = 0
    ∧ win0_7.index t (0 : Fin 2) = t.val ∧ win0_7.index t (1 : Fin 2) = 0 :=
  (by decide +kernel : ∀ t : Fin grid0.N, _)

/-- Window 0's block at point t holds rows 5000·t … of its array: entry (p, k) of the block is entry (r, k) of the array
    for the row r = 5000·t + p. -/
theorem rowBlock0_0 (c : Dev nD) (t : Fin cfg0.N) (p : Fin 5000) (k : Fin 128) (r : Fin 50000) (hr : r.val = t.val * 5000 + p.val) :
    (iblk0 V c 0 t : Vec Ideal S5000x128 .f32) (ix2 p k) = (V c (Pipeline.arrRef spec0 0) : S50000x128.Idx → EReal) (ix2 r k) := by
  have e0 : win0_0.index t (0 : Fin 2) = t.val := (blockIndex0 t).1
  have e1 : win0_0.index t (1 : Fin 2) = 0 := (blockIndex0 t).2.1
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Window 1's block at point t holds rows 5000·t … of its array: entry (p, k) of the block is entry (r, k) of the array
    for the row r = 5000·t + p. -/
theorem rowBlock0_1 (c : Dev nD) (t : Fin cfg0.N) (p : Fin 5000) (k : Fin 128) (r : Fin 50000) (hr : r.val = t.val * 5000 + p.val) :
    (iblk0 V c 1 t : Vec Ideal S5000x128 .f32) (ix2 p k) = (V c (Pipeline.arrRef spec0 1) : S50000x128.Idx → EReal) (ix2 r k) := by
  have e0 : win0_1.index t (0 : Fin 2) = t.val := (blockIndex0 t).2.2.1
  have e1 : win0_1.index t (1 : Fin 2) = 0 := (blockIndex0 t).2.2.2.1
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Window 2 holds its whole [128,128] matrix at every point. -/
theorem wholeMatrix0_2 (c : Dev nD) (t : Fin cfg0.N) :
    (iblk0 V c 2 t : Vec Ideal S128x128 .f32) = (V c (Pipeline.arrRef spec0 2) : S128x128.Idx → EReal) := by
  have e0 : win0_2.index t (0 : Fin 2) = 0 := (blockIndex0 t).2.2.2.2.1
  have e1 : win0_2.index t (1 : Fin 2) = 0 := (blockIndex0 t).2.2.2.2.2.1
  funext y
  unfold iblk0
  rw [View.read_apply]
  show V c (Pipeline.arrRef spec0 2) _ = V c (Pipeline.arrRef spec0 2) y
  congr 1
  funext a
  apply Fin.ext
  match a with
  | ⟨0, _⟩ => show win0_2.index t (0 : Fin 2) * 128 + 1 * (y 0).val = (y 0).val; rw [e0]; omega
  | ⟨1, _⟩ => show win0_2.index t (1 : Fin 2) * 128 + 1 * (y 1).val = (y 1).val; rw [e1]; omega

/-- Window 3 holds its whole bias row at every point. -/
theorem wholeBias0_3 (c : Dev nD) (t : Fin cfg0.N) :
    (iblk0 V c 3 t : Vec Ideal S128 .f32) = (V c (Pipeline.arrRef spec0 3) : S128.Idx → EReal) := by
  have e0 : win0_3.index t (0 : Fin 1) = 0 := (blockIndex0 t).2.2.2.2.2.2.1
  funext y
  unfold iblk0
  rw [View.read_apply]
  show V c (Pipeline.arrRef spec0 3) _ = V c (Pipeline.arrRef spec0 3) y
  congr 1
  funext a
  apply Fin.ext
  match a with
  | ⟨0, _⟩ => show win0_3.index t (0 : Fin 1) * 128 + 1 * (y 0).val = (y 0).val; rw [e0]; omega

/-- Window 4 holds its whole [128,128] matrix at every point. -/
theorem wholeMatrix0_4 (c : Dev nD) (t : Fin cfg0.N) :
    (iblk0 V c 4 t : Vec Ideal S128x128 .f32) = (V c (Pipeline.arrRef spec0 4) : S128x128.Idx → EReal) := by
  have e0 : win0_4.index t (0 : Fin 2) = 0 := (blockIndex0 t).2.2.2.2.2.2.2.1
  have e1 : win0_4.index t (1 : Fin 2) = 0 := (blockIndex0 t).2.2.2.2.2.2.2.2.1
  funext y
  unfold iblk0
  rw [View.read_apply]
  show V c (Pipeline.arrRef spec0 4) _ = V c (Pipeline.arrRef spec0 4) y
  congr 1
  funext a
  apply Fin.ext
  match a with
  | ⟨0, _⟩ => show win0_4.index t (0 : Fin 2) * 128 + 1 * (y 0).val = (y 0).val; rw [e0]; omega
  | ⟨1, _⟩ => show win0_4.index t (1 : Fin 2) * 128 + 1 * (y 1).val = (y 1).val; rw [e1]; omega

/-- Window 5 holds its whole bias row at every point. -/
theorem wholeBias0_5 (c : Dev nD) (t : Fin cfg0.N) :
    (iblk0 V c 5 t : Vec Ideal S128 .f32) = (V c (Pipeline.arrRef spec0 5) : S128.Idx → EReal) := by
  have e0 : win0_5.index t (0 : Fin 1) = 0 := (blockIndex0 t).2.2.2.2.2.2.2.2.2.1
  funext y
  unfold iblk0
  rw [View.read_apply]
  show V c (Pipeline.arrRef spec0 5) _ = V c (Pipeline.arrRef spec0 5) y
  congr 1
  funext a
  apply Fin.ext
  match a with
  | ⟨0, _⟩ => show win0_5.index t (0 : Fin 1) * 128 + 1 * (y 0).val = (y 0).val; rw [e0]; omega

/-- Window 6 holds its whole bias row at every point. -/
theorem wholeBias0_6 (c : Dev nD) (t : Fin cfg0.N) :
    (iblk0 V c 6 t : Vec Ideal S128 .f32) = (V c (Pipeline.arrRef spec0 6) : S128.Idx → EReal) := by
  have e0 : win0_6.index t (0 : Fin 1) = 0 := (blockIndex0 t).2.2.2.2.2.2.2.2.2.2.1
  funext y
  unfold iblk0
  rw [View.read_apply]
  show V c (Pipeline.arrRef spec0 6) _ = V c (Pipeline.arrRef spec0 6) y
  congr 1
  funext a
  apply Fin.ext
  match a with
  | ⟨0, _⟩ => show win0_6.index t (0 : Fin 1) * 128 + 1 * (y 0).val = (y 0).val; rw [e0]; omega

/-- The body on blocks that are rows of X and H, with the weights and bias rows it is handed, at entry j of the block, is
    the layer's function of the whole arrays at the entry i of the same column whose row is the one row j of the block holds. -/
theorem layerBody0_rows (x h : Vec Ideal S5000x128 .f32) (S T : Vec Ideal S128x128 .f32) (bs bn b : Vec Ideal S128 .f32)
    (X H : S50000x128.Idx → EReal) (S' T' : S128x128.Idx → EReal) (bs' bn' b' : S128.Idx → EReal)
    (j : S5000x128.Idx) (i : S50000x128.Idx)
    (hx : ∀ k : Fin 128, x (ix2 (j 0) k) = X (ix2 (i 0) k))
    (hh : ∀ k : Fin 128, h (ix2 (j 0) k) = H (ix2 (i 0) k))
    (hS : S = S') (hT : T = T') (hbs : bs = bs') (hbn : bn = bn') (hb : b = b')
    (hq : (j 1).val = (i 1).val) :
    k0_pay1 (F := Ideal) x h S T bs bn b j = Spec.layerOut (N := 50000) X H S' T' bs' bn' b' i := by
  subst hS hT hbs hbn hb
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q = q' := Fin.ext hq
  have hx' : ∀ k : Fin 128, x (ix2 p k) = X (ix2 r k) := hx
  have hh' : ∀ k : Fin 128, h (ix2 p k) = H (ix2 r k) := hh
  rw [layerBody0_at]
  simp only [hx', hh']
  rfl

set_option maxHeartbeats 1000000 in
/-- What point t writes back is block t of the layer's function of the arrays the region finds. -/
theorem layerRows_flushed0 (c : Dev nD) (t : Fin cfg0.N) :
    (dat0 (F := Ideal) V c).flushed 7 t = ((cfg0.win 7).blk t).view.read (Elt Ideal)
      (Spec.layerOut (N := 50000) (V c (Pipeline.arrRef spec0 0)) (V c (Pipeline.arrRef spec0 1)) (V c (Pipeline.arrRef spec0 2))
        (V c (Pipeline.arrRef spec0 4)) (V c (Pipeline.arrRef spec0 3)) (V c (Pipeline.arrRef spec0 5)) (V c (Pipeline.arrRef spec0 6))) := by
  show (cfg0.win 7).cut (grid0.coords t) ((dat0 V c).after 7 t) = _
  rw [after0_7]
  unfold out0_7
  rw [View.canon_unit_zero zeroOffsets2_0]
  simp only [View.ld_unit_zero (S := S5000x128) zeroOffsets2_0, View.ld_unit_zero (S := S128x128) zeroOffsets2_0,
    View.ld_unit_zero (S := S128) zeroOffsets1_0]
  have e0 : win0_7.index t (0 : Fin 2) = t.val := (blockIndex0 t).2.2.2.2.2.2.2.2.2.2.2.1
  have e1 : win0_7.index t (1 : Fin 2) = 0 := (blockIndex0 t).2.2.2.2.2.2.2.2.2.2.2.2
  funext j
  have hrow : ((((cfg0.win 7).blk t).view.emb j) 0).val = t.val * 5000 + (j 0).val := by
    show win0_7.index t (0 : Fin 2) * 5000 + 1 * (j 0).val = _; rw [e0]; omega
  have hcol : (j 1).val = ((((cfg0.win 7).blk t).view.emb j) 1).val := by
    show _ = win0_7.index t (1 : Fin 2) * 128 + 1 * (j 1).val; rw [e1]; omega
  show k0_pay1 (F := Ideal) (iblk0 V c 0 t) (iblk0 V c 1 t) (iblk0 V c 2 t) (iblk0 V c 4 t) (iblk0 V c 3 t) (iblk0 V c 5 t) (iblk0 V c 6 t) j
    = Spec.layerOut (N := 50000) (V c (Pipeline.arrRef spec0 0)) (V c (Pipeline.arrRef spec0 1)) (V c (Pipeline.arrRef spec0 2))
        (V c (Pipeline.arrRef spec0 4)) (V c (Pipeline.arrRef spec0 3)) (V c (Pipeline.arrRef spec0 5)) (V c (Pipeline.arrRef spec0 6))
        (((cfg0.win 7).blk t).view.emb j)
  exact layerBody0_rows (iblk0 V c 0 t) (iblk0 V c 1 t) (iblk0 V c 2 t) (iblk0 V c 4 t) (iblk0 V c 3 t) (iblk0 V c 5 t) (iblk0 V c 6 t)
    (V c (Pipeline.arrRef spec0 0)) (V c (Pipeline.arrRef spec0 1)) (V c (Pipeline.arrRef spec0 2)) (V c (Pipeline.arrRef spec0 4))
    (V c (Pipeline.arrRef spec0 3)) (V c (Pipeline.arrRef spec0 5)) (V c (Pipeline.arrRef spec0 6))
    j (((cfg0.win 7).blk t).view.emb j)
    (fun k => rowBlock0_0 V c t (j 0) k _ hrow) (fun k => rowBlock0_1 V c t (j 0) k _ hrow)
    (wholeMatrix0_2 V c t) (wholeMatrix0_4 V c t) (wholeBias0_3 V c t) (wholeBias0_5 V c t) (wholeBias0_6 V c t) hcol

/-- An entry of the output lies in point t's block iff each coordinate lies in the block's range on its axis. -/
theorem mem_rows0 (t : Fin cfg0.N) (i : S50000x128.Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v41).slice (win0_7.rect t)).set ↔ _
  rw [View.set_slice_whole, Rect.mem_set_unit]
  exact Iff.rfl

/-- Every entry of the output is in the block of some point: row r in that of point r / 5000. -/
theorem rows_covered0 (i : S50000x128.Idx) :
    ∃ t : Fin cfg0.N, (cfg0.win 7).flush t = true ∧ i ∈ ((cfg0.win 7).blk t).view.set := by
  have hN : grid0.N = 10 := N_0
  have hi0 : (i 0).val < 50000 := (i 0).isLt
  have hi1 : (i 1).val < 128 := (i 1).isLt
  obtain ⟨t, ht⟩ : ∃ t : Fin cfg0.N, t.val = (i 0).val / 5000 :=
    ⟨⟨(i 0).val / 5000, by show (i 0).val / 5000 < grid0.N; rw [hN]; omega⟩, rfl⟩
  have e0 : win0_7.index t (0 : Fin 2) = t.val := (blockIndex0 t).2.2.2.2.2.2.2.2.2.2.2.1
  have e1 : win0_7.index t (1 : Fin 2) = 0 := (blockIndex0 t).2.2.2.2.2.2.2.2.2.2.2.2
  refine ⟨t, flush0_7 t, ?_⟩
  rw [mem_rows0]
  intro a
  match a with
  | ⟨0, _⟩ => show win0_7.index t (0 : Fin 2) * 5000 ≤ (i 0).val ∧ (i 0).val < win0_7.index t (0 : Fin 2) * 5000 + 5000; rw [e0, ht]; omega
  | ⟨1, _⟩ => show win0_7.index t (1 : Fin 2) * 128 ≤ (i 1).val ∧ (i 1).val < win0_7.index t (1 : Fin 2) * 128 + 128; rw [e1]; omega

/-- The output array after the region: the layer's function of the arrays the region finds, entry by entry. -/
theorem region0_value (c : Dev nD) :
    (dat0 (F := Ideal) V c).arrAt 7 cfg0.N
      = Spec.layerOut (N := 50000) (V c (Pipeline.arrRef spec0 0)) (V c (Pipeline.arrRef spec0 1)) (V c (Pipeline.arrRef spec0 2))
          (V c (Pipeline.arrRef spec0 4)) (V c (Pipeline.arrRef spec0 3)) (V c (Pipeline.arrRef spec0 5)) (V c (Pipeline.arrRef spec0 6)) :=
  (dat0 V c).arrAt_eq_of_cover 7 _ (fun t _ => layerRows_flushed0 V c t) rows_covered0

end Cert.KernelIdeal.RegionValue

end
-- ==== Proof.RegionValue1.lean ====
/-
  The array the second layer's region leaves: every entry of the [50000,128] output is the layer's function of the
  arrays the region finds.

  The region visits ten points.  At point t the two row windows hold rows 5000·t … 5000·t + 4999 of their arrays, the
  weights and the bias rows are held whole, and the body's result for those rows is written back to the same rows of
  the output.  So what point t writes is the restriction of the layer's whole-array function to its rows, the ten row
  blocks cover the output (row r lies in the block of point r / 5000), and the output ends at that function.
-/
import proofs.«123143_j50818053046585_1_alg».proof.Proof.Gen.KernelIdeal.Frame
import proofs.«123143_j50818053046585_1_alg».proof.Proof.Spec
import proofs.«123143_j50818053046585_1_alg».proof.Proof.LayerBody
import Idealize.ShloMosaic.Lib.ValueIdx
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets2_1 : (![0, 0] : Fin 2 → Nat) = fun _ => 0 := funext fun a => by fin_cases a <;> rfl
theorem zeroOffsets1_1 : (![0] : Fin 1 → Nat) = fun _ => 0 := funext fun a => by fin_cases a <;> rfl

/-- The block indices over the ten points: the row windows (features, neighbour features, output) are at block t of
    their rows, the weights and the bias rows at their one block. -/
theorem blockIndex1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 1) = 0
    ∧ win1_7.index t (0 : Fin 2) = t.val ∧ win1_7.index t (1 : Fin 2) = 0 :=
  (by decide +kernel : ∀ t : Fin grid1.N, _)

/-- Window 0's block at point t holds rows 5000·t … of its array: entry (p, k) of the block is entry (r, k) of the array
    for the row r = 5000·t + p. -/
theorem rowBlock1_0 (c : Dev nD) (t : Fin cfg1.N) (p : Fin 5000) (k : Fin 128) (r : Fin 50000) (hr : r.val = t.val * 5000 + p.val) :
    (iblk1 V c 0 t : Vec Ideal S5000x128 .f32) (ix2 p k) = (V c (Pipeline.arrRef spec1 0) : S50000x128.Idx → EReal) (ix2 r k) := by
  have e0 : win1_0.index t (0 : Fin 2) = t.val := (blockIndex1 t).1
  have e1 : win1_0.index t (1 : Fin 2) = 0 := (blockIndex1 t).2.1
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * k.val = k.val; rw [e1]; omega

/-- Window 1's block at point t holds rows 5000·t … of its array: entry (p, k) of the block is entry (r, k) of the array
    for the row r = 5000·t + p. -/
theorem rowBlock1_1 (c : Dev nD) (t : Fin cfg1.N) (p : Fin 5000) (k : Fin 128) (r : Fin 50000) (hr : r.val = t.val * 5000 + p.val) :
    (iblk1 V c 1 t : Vec Ideal S5000x128 .f32) (ix2 p k) = (V c (Pipeline.arrRef spec1 1) : S50000x128.Idx → EReal) (ix2 r k) := by
  have e0 : win1_1.index t (0 : Fin 2) = t.val := (blockIndex1 t).2.2.1
  have e1 : win1_1.index t (1 : Fin 2) = 0 := (blockIndex1 t).2.2.2.1
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * k.val = k.val; rw [e1]; omega

/-- Window 2 holds its whole [128,128] matrix at every point. -/
theorem wholeMatrix1_2 (c : Dev nD) (t : Fin cfg1.N) :
    (iblk1 V c 2 t : Vec Ideal S128x128 .f32) = (V c (Pipeline.arrRef spec1 2) : S128x128.Idx → EReal) := by
  have e0 : win1_2.index t (0 : Fin 2) = 0 := (blockIndex1 t).2.2.2.2.1
  have e1 : win1_2.index t (1 : Fin 2) = 0 := (blockIndex1 t).2.2.2.2.2.1
  funext y
  unfold iblk1
  rw [View.read_apply]
  show V c (Pipeline.arrRef spec1 2) _ = V c (Pipeline.arrRef spec1 2) y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- Window 3 holds its whole bias row at every point. -/
theorem wholeBias1_3 (c : Dev nD) (t : Fin cfg1.N) :
    (iblk1 V c 3 t : Vec Ideal S128 .f32) = (V c (Pipeline.arrRef spec1 3) : S128.Idx → EReal) := by
  have e0 : win1_3.index t (0 : Fin 1) = 0 := (blockIndex1 t).2.2.2.2.2.2.1
  funext y
  unfold iblk1
  rw [View.read_apply]
  show V c (Pipeline.arrRef spec1 3) _ = V c (Pipeline.arrRef spec1 3) y
  congr 1
  funext a
  apply Fin.ext
  match a with
  | ⟨0, _⟩ => show win1_3.index t (0 : Fin 1) * 128 + 1 * (y 0).val = (y 0).val; rw [e0]; omega

/-- Window 4 holds its whole [128,128] matrix at every point. -/
theorem wholeMatrix1_4 (c : Dev nD) (t : Fin cfg1.N) :
    (iblk1 V c 4 t : Vec Ideal S128x128 .f32) = (V c (Pipeline.arrRef spec1 4) : S128x128.Idx → EReal) := by
  have e0 : win1_4.index t (0 : Fin 2) = 0 := (blockIndex1 t).2.2.2.2.2.2.2.1
  have e1 : win1_4.index t (1 : Fin 2) = 0 := (blockIndex1 t).2.2.2.2.2.2.2.2.1
  funext y
  unfold iblk1
  rw [View.read_apply]
  show V c (Pipeline.arrRef spec1 4) _ = V c (Pipeline.arrRef spec1 4) y
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- Window 5 holds its whole bias row at every point. -/
theorem wholeBias1_5 (c : Dev nD) (t : Fin cfg1.N) :
    (iblk1 V c 5 t : Vec Ideal S128 .f32) = (V c (Pipeline.arrRef spec1 5) : S128.Idx → EReal) := by
  have e0 : win1_5.index t (0 : Fin 1) = 0 := (blockIndex1 t).2.2.2.2.2.2.2.2.2.1
  funext y
  unfold iblk1
  rw [View.read_apply]
  show V c (Pipeline.arrRef spec1 5) _ = V c (Pipeline.arrRef spec1 5) y
  congr 1
  funext a
  apply Fin.ext
  match a with
  | ⟨0, _⟩ => show win1_5.index t (0 : Fin 1) * 128 + 1 * (y 0).val = (y 0).val; rw [e0]; omega

/-- Window 6 holds its whole bias row at every point. -/
theorem wholeBias1_6 (c : Dev nD) (t : Fin cfg1.N) :
    (iblk1 V c 6 t : Vec Ideal S128 .f32) = (V c (Pipeline.arrRef spec1 6) : S128.Idx → EReal) := by
  have e0 : win1_6.index t (0 : Fin 1) = 0 := (blockIndex1 t).2.2.2.2.2.2.2.2.2.2.1
  funext y
  unfold iblk1
  rw [View.read_apply]
  show V c (Pipeline.arrRef spec1 6) _ = V c (Pipeline.arrRef spec1 6) y
  congr 1
  funext a
  apply Fin.ext
  match a with
  | ⟨0, _⟩ => show win1_6.index t (0 : Fin 1) * 128 + 1 * (y 0).val = (y 0).val; rw [e0]; omega

/-- The body on blocks that are rows of X and H, with the weights and bias rows it is handed, at entry j of the block, is
    the layer's function of the whole arrays at the entry i of the same column whose row is the one row j of the block holds. -/
theorem layerBody1_rows (x h : Vec Ideal S5000x128 .f32) (S T : Vec Ideal S128x128 .f32) (bs bn b : Vec Ideal S128 .f32)
    (X H : S50000x128.Idx → EReal) (S' T' : S128x128.Idx → EReal) (bs' bn' b' : S128.Idx → EReal)
    (j : S5000x128.Idx) (i : S50000x128.Idx)
    (hx : ∀ k : Fin 128, x (ix2 (j 0) k) = X (ix2 (i 0) k))
    (hh : ∀ k : Fin 128, h (ix2 (j 0) k) = H (ix2 (i 0) k))
    (hS : S = S') (hT : T = T') (hbs : bs = bs') (hbn : bn = bn') (hb : b = b')
    (hq : (j 1).val = (i 1).val) :
    k1_pay1 (F := Ideal) x h S T bs bn b j = Spec.layerOut (N := 50000) X H S' T' bs' bn' b' i := by
  subst hS hT hbs hbn hb
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q = q' := Fin.ext hq
  have hx' : ∀ k : Fin 128, x (ix2 p k) = X (ix2 r k) := hx
  have hh' : ∀ k : Fin 128, h (ix2 p k) = H (ix2 r k) := hh
  rw [layerBody1_at]
  simp only [hx', hh']
  rfl

set_option maxHeartbeats 1000000 in
/-- What point t writes back is block t of the layer's function of the arrays the region finds. -/
theorem layerRows_flushed1 (c : Dev nD) (t : Fin cfg1.N) :
    (dat1 (F := Ideal) V c).flushed 7 t = ((cfg1.win 7).blk t).view.read (Elt Ideal)
      (Spec.layerOut (N := 50000) (V c (Pipeline.arrRef spec1 0)) (V c (Pipeline.arrRef spec1 1)) (V c (Pipeline.arrRef spec1 2))
        (V c (Pipeline.arrRef spec1 4)) (V c (Pipeline.arrRef spec1 3)) (V c (Pipeline.arrRef spec1 5)) (V c (Pipeline.arrRef spec1 6))) := by
  show (cfg1.win 7).cut (grid1.coords t) ((dat1 V c).after 7 t) = _
  rw [after1_7]
  unfold out1_7
  rw [View.canon_unit_zero zeroOffsets2_1]
  simp only [View.ld_unit_zero (S := S5000x128) zeroOffsets2_1, View.ld_unit_zero (S := S128x128) zeroOffsets2_1,
    View.ld_unit_zero (S := S128) zeroOffsets1_1]
  have e0 : win1_7.index t (0 : Fin 2) = t.val := (blockIndex1 t).2.2.2.2.2.2.2.2.2.2.2.1
  have e1 : win1_7.index t (1 : Fin 2) = 0 := (blockIndex1 t).2.2.2.2.2.2.2.2.2.2.2.2
  funext j
  have hrow : ((((cfg1.win 7).blk t).view.emb j) 0).val = t.val * 5000 + (j 0).val := by
    show win1_7.index t (0 : Fin 2) * 5000 + 1 * (j 0).val = _; rw [e0]; omega
  have hcol : (j 1).val = ((((cfg1.win 7).blk t).view.emb j) 1).val := by
    show _ = win1_7.index t (1 : Fin 2) * 128 + 1 * (j 1).val; rw [e1]; omega
  show k1_pay1 (F := Ideal) (iblk1 V c 0 t) (iblk1 V c 1 t) (iblk1 V c 2 t) (iblk1 V c 4 t) (iblk1 V c 3 t) (iblk1 V c 5 t) (iblk1 V c 6 t) j
    = Spec.layerOut (N := 50000) (V c (Pipeline.arrRef spec1 0)) (V c (Pipeline.arrRef spec1 1)) (V c (Pipeline.arrRef spec1 2))
        (V c (Pipeline.arrRef spec1 4)) (V c (Pipeline.arrRef spec1 3)) (V c (Pipeline.arrRef spec1 5)) (V c (Pipeline.arrRef spec1 6))
        (((cfg1.win 7).blk t).view.emb j)
  exact layerBody1_rows (iblk1 V c 0 t) (iblk1 V c 1 t) (iblk1 V c 2 t) (iblk1 V c 4 t) (iblk1 V c 3 t) (iblk1 V c 5 t) (iblk1 V c 6 t)
    (V c (Pipeline.arrRef spec1 0)) (V c (Pipeline.arrRef spec1 1)) (V c (Pipeline.arrRef spec1 2)) (V c (Pipeline.arrRef spec1 4))
    (V c (Pipeline.arrRef spec1 3)) (V c (Pipeline.arrRef spec1 5)) (V c (Pipeline.arrRef spec1 6))
    j (((cfg1.win 7).blk t).view.emb j)
    (fun k => rowBlock1_0 V c t (j 0) k _ hrow) (fun k => rowBlock1_1 V c t (j 0) k _ hrow)
    (wholeMatrix1_2 V c t) (wholeMatrix1_4 V c t) (wholeBias1_3 V c t) (wholeBias1_5 V c t) (wholeBias1_6 V c t) hcol

/-- An entry of the output lies in point t's block iff each coordinate lies in the block's range on its axis. -/
theorem mem_rows1 (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v70).slice (win1_7.rect t)).set ↔ _
  rw [View.set_slice_whole, Rect.mem_set_unit]
  exact Iff.rfl

/-- Every entry of the output is in the block of some point: row r in that of point r / 5000. -/
theorem rows_covered1 (i : S50000x128.Idx) :
    ∃ t : Fin cfg1.N, (cfg1.win 7).flush t = true ∧ i ∈ ((cfg1.win 7).blk t).view.set := by
  have hN : grid1.N = 10 := N_1
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by show (i 0).val / 5000 < grid1.N; rw [hN]; omega⟩, rfl⟩
  have e0 : win1_7.index t (0 : Fin 2) = t.val := (blockIndex1 t).2.2.2.2.2.2.2.2.2.2.2.1
  have e1 : win1_7.index t (1 : Fin 2) = 0 := (blockIndex1 t).2.2.2.2.2.2.2.2.2.2.2.2
  refine ⟨t, flush1_7 t, ?_⟩
  rw [mem_rows1]
  intro a
  match a with
  | ⟨0, _⟩ => show win1_7.index t (0 : Fin 2) * 5000 ≤ (i 0).val ∧ (i 0).val < win1_7.index t (0 : Fin 2) * 5000 + 5000; rw [e0, ht]; omega
  | ⟨1, _⟩ => show win1_7.index t (1 : Fin 2) * 128 ≤ (i 1).val ∧ (i 1).val < win1_7.index t (1 : Fin 2) * 128 + 128; rw [e1]; omega

/-- The output array after the region: the layer's function of the arrays the region finds, entry by entry. -/
theorem region1_value (c : Dev nD) :
    (dat1 (F := Ideal) V c).arrAt 7 cfg1.N
      = Spec.layerOut (N := 50000) (V c (Pipeline.arrRef spec1 0)) (V c (Pipeline.arrRef spec1 1)) (V c (Pipeline.arrRef spec1 2))
          (V c (Pipeline.arrRef spec1 4)) (V c (Pipeline.arrRef spec1 3)) (V c (Pipeline.arrRef spec1 5)) (V c (Pipeline.arrRef spec1 6)) :=
  (dat1 V c).arrAt_eq_of_cover 7 _ (fun t _ => layerRows_flushed1 V c t) rows_covered1

end Cert.KernelIdeal.RegionValue

end
-- ==== Proof.RegionValue2.lean ====
/-
  The array the closing projection's region leaves: every entry of the [50000,128] output is the projection of the
  arrays the region finds.

  The region visits ten points.  At point t the row window holds rows 5000·t … 5000·t + 4999 of the features, the weight
  and the bias row are held whole, and the body's result for those rows is written back to the same rows of the output.
  So what point t writes is the restriction of the projection's whole-array function to its rows, the ten row blocks
  cover the output (row r lies in the block of point r / 5000), and the output ends at that function.
-/
import proofs.«123143_j50818053046585_1_alg».proof.Proof.Gen.KernelIdeal.Frame
import proofs.«123143_j50818053046585_1_alg».proof.Proof.Spec
import proofs.«123143_j50818053046585_1_alg».proof.Proof.LayerBody
import Idealize.ShloMosaic.Lib.ValueIdx
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets2_2 : (![0, 0] : Fin 2 → Nat) = fun _ => 0 := funext fun a => by fin_cases a <;> rfl
theorem zeroOffsets1_2 : (![0] : Fin 1 → Nat) = fun _ => 0 := funext fun a => by fin_cases a <;> rfl

/-- The block indices over the ten points: the row windows (features, output) are at block t of their rows, the weight
    and the bias row at their one block. -/
theorem blockIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The feature window's block at point t holds rows 5000·t … of its array: entry (p, k) of the block is entry (r, k)
    of the array for the row r = 5000·t + p. -/
theorem rowBlock2_0 (c : Dev nD) (t : Fin cfg2.N) (p : Fin 5000) (k : Fin 128) (r : Fin 50000) (hr : r.val = t.val * 5000 + p.val) :
    (iblk2 V c 0 t : Vec Ideal S5000x128 .f32) (ix2 p k) = (V c (Pipeline.arrRef spec2 0) : S50000x128.Idx → EReal) (ix2 r k) := by
  have e0 : win2_0.index t (0 : Fin 2) = t.val := (blockIndex2 t).1
  have e1 : win2_0.index t (1 : Fin 2) = 0 := (blockIndex2 t).2.1
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * k.val = k.val; rw [e1]; omega

/-- The weight window holds its whole [128,128] matrix at every point. -/
theorem wholeMatrix2_1 (c : Dev nD) (t : Fin cfg2.N) :
    (iblk2 V c 1 t : Vec Ideal S128x128 .f32) = (V c (Pipeline.arrRef spec2 1) : S128x128.Idx → EReal) := by
  have e0 : win2_1.index t (0 : Fin 2) = 0 := (blockIndex2 t).2.2.1
  have e1 : win2_1.index t (1 : Fin 2) = 0 := (blockIndex2 t).2.2.2.1
  funext y
  unfold iblk2
  rw [View.read_apply]
  show V c (Pipeline.arrRef spec2 1) _ = V c (Pipeline.arrRef spec2 1) y
  congr 1
  funext a
  apply Fin.ext
  match a with
  | ⟨0, _⟩ => show win2_1.index t (0 : Fin 2) * 128 + 1 * (y 0).val = (y 0).val; rw [e0]; omega
  | ⟨1, _⟩ => show win2_1.index t (1 : Fin 2) * 128 + 1 * (y 1).val = (y 1).val; rw [e1]; omega

/-- The bias window holds its whole row at every point. -/
theorem wholeBias2_2 (c : Dev nD) (t : Fin cfg2.N) :
    (iblk2 V c 2 t : Vec Ideal S128 .f32) = (V c (Pipeline.arrRef spec2 2) : S128.Idx → EReal) := by
  have e0 : win2_2.index t (0 : Fin 1) = 0 := (blockIndex2 t).2.2.2.2.1
  funext y
  unfold iblk2
  rw [View.read_apply]
  show V c (Pipeline.arrRef spec2 2) _ = V c (Pipeline.arrRef spec2 2) y
  congr 1
  funext a
  apply Fin.ext
  match a with
  | ⟨0, _⟩ => show win2_2.index t (0 : Fin 1) * 128 + 1 * (y 0).val = (y 0).val; rw [e0]; omega

/-- The body on a block that is rows of X, with the weight and bias it is handed, at entry j of the block, is the
    projection of the whole arrays at the entry i of the same column whose row is the one row j of the block holds. -/
theorem linearBody_rows (x : Vec Ideal S5000x128 .f32) (T : Vec Ideal S128x128 .f32) (b : Vec Ideal S128 .f32)
    (X : S50000x128.Idx → EReal) (T' : S128x128.Idx → EReal) (b' : S128.Idx → EReal) (j : S5000x128.Idx) (i : S50000x128.Idx)
    (hx : ∀ k : Fin 128, x (ix2 (j 0) k) = X (ix2 (i 0) k)) (hT : T = T') (hb : b = b')
    (hq : (j 1).val = (i 1).val) :
    k2_pay1 (F := Ideal) x T b j = Spec.linOut (N := 50000) X T' b' i := by
  subst hT hb
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q = q' := Fin.ext hq
  have hx' : ∀ k : Fin 128, x (ix2 p k) = X (ix2 r k) := hx
  rw [linearBody_at]
  simp only [hx']
  rfl

/-- What point t writes back is block t of the projection of the arrays the region finds. -/
theorem linearRows_flushed (c : Dev nD) (t : Fin cfg2.N) :
    (dat2 (F := Ideal) V c).flushed 3 t = ((cfg2.win 3).blk t).view.read (Elt Ideal)
      (Spec.linOut (N := 50000) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zeroOffsets2_2]
  simp only [View.ld_unit_zero (S := S5000x128) zeroOffsets2_2, View.ld_unit_zero (S := S128x128) zeroOffsets2_2,
    View.ld_unit_zero (S := S128) zeroOffsets1_2]
  have e0 : win2_3.index t (0 : Fin 2) = t.val := (blockIndex2 t).2.2.2.2.2.1
  have e1 : win2_3.index t (1 : Fin 2) = 0 := (blockIndex2 t).2.2.2.2.2.2
  funext j
  have hrow : ((((cfg2.win 3).blk t).view.emb j) 0).val = t.val * 5000 + (j 0).val := by
    show win2_3.index t (0 : Fin 2) * 5000 + 1 * (j 0).val = _; rw [e0]; omega
  have hcol : (j 1).val = ((((cfg2.win 3).blk t).view.emb j) 1).val := by
    show _ = win2_3.index t (1 : Fin 2) * 128 + 1 * (j 1).val; rw [e1]; omega
  show k2_pay1 (F := Ideal) (iblk2 V c 0 t) (iblk2 V c 1 t) (iblk2 V c 2 t) j
    = Spec.linOut (N := 50000) (V c (Pipeline.arrRef spec2 0)) (V c (Pipeline.arrRef spec2 1)) (V c (Pipeline.arrRef spec2 2))
        (((cfg2.win 3).blk t).view.emb j)
  exact linearBody_rows (iblk2 V c 0 t) (iblk2 V c 1 t) (iblk2 V c 2 t)
    (V c (Pipeline.arrRef spec2 0)) (V c (Pipeline.arrRef spec2 1)) (V c (Pipeline.arrRef spec2 2)) j (((cfg2.win 3).blk t).view.emb j)
    (fun k => rowBlock2_0 V c t (j 0) k _ hrow) (wholeMatrix2_1 V c t) (wholeBias2_2 V c t) hcol

/-- An entry of the output lies in point t's block iff each coordinate lies in the block's range on its axis. -/
theorem mem_rows2 (t : Fin cfg2.N) (i : S50000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v72).slice (win2_3.rect t)).set ↔ _
  rw [View.set_slice_whole, Rect.mem_set_unit]
  exact Iff.rfl

/-- Every entry of the output is in the block of some point: row r in that of point r / 5000. -/
theorem rows_covered2 (i : S50000x128.Idx) :
    ∃ t : Fin cfg2.N, (cfg2.win 3).flush t = true ∧ i ∈ ((cfg2.win 3).blk t).view.set := by
  have hN : grid2.N = 10 := N_2
  have hi0 : (i 0).val < 50000 := (i 0).isLt
  have hi1 : (i 1).val < 128 := (i 1).isLt
  obtain ⟨t, ht⟩ : ∃ t : Fin cfg2.N, t.val = (i 0).val / 5000 :=
    ⟨⟨(i 0).val / 5000, by show (i 0).val / 5000 < grid2.N; rw [hN]; omega⟩, rfl⟩
  have e0 : win2_3.index t (0 : Fin 2) = t.val := (blockIndex2 t).2.2.2.2.2.1
  have e1 : win2_3.index t (1 : Fin 2) = 0 := (blockIndex2 t).2.2.2.2.2.2
  refine ⟨t, flush2_3 t, ?_⟩
  rw [mem_rows2]
  intro a
  match a with
  | ⟨0, _⟩ => show win2_3.index t (0 : Fin 2) * 5000 ≤ (i 0).val ∧ (i 0).val < win2_3.index t (0 : Fin 2) * 5000 + 5000; rw [e0, ht]; omega
  | ⟨1, _⟩ => show win2_3.index t (1 : Fin 2) * 128 ≤ (i 1).val ∧ (i 1).val < win2_3.index t (1 : Fin 2) * 128 + 128; rw [e1]; omega

/-- The output array after the region: the projection of the arrays the region finds, entry by entry. -/
theorem region2_value (c : Dev nD) :
    (dat2 (F := Ideal) V c).arrAt 3 cfg2.N
      = Spec.linOut (N := 50000) (V c (Pipeline.arrRef spec2 0)) (V c (Pipeline.arrRef spec2 1)) (V c (Pipeline.arrRef spec2 2)) :=
  (dat2 V c).arrAt_eq_of_cover 3 _ (fun t _ => linearRows_flushed V c t) rows_covered2

end Cert.KernelIdeal.RegionValue

end
-- ==== Proof.RegionValue.lean ====
/-
  The three regions' output arrays, each as one function of the arrays its region finds: the two dense layers
  (`region0_value`, `region1_value`) and the closing projection (`region2_value`).
-/
import proofs.«123143_j50818053046585_1_alg».proof.Proof.RegionValue0
import proofs.«123143_j50818053046585_1_alg».proof.Proof.RegionValue1
import proofs.«123143_j50818053046585_1_alg».proof.Proof.RegionValue2
-- ==== Proof.KernelNet.lean ====
/-
  The network the kernel program computes, as one function of its ten arguments.

  With s, d the two rows of the edge list and r the reciprocal of (in-degree + 1) as a column, a layer with stacked
  parameters slice l maps features x to
      layerOut x (neigh x s d w r) (W_self[l])ᵀ (W_neigh[l])ᵀ b_self[l] b_neigh[l] bias[l],
  and the result is the projection of the second layer's output by (W_agg)ᵀ and b_agg.
-/
import proofs.«123143_j50818053046585_1_alg».proof.Proof.KernelHost
import proofs.«123143_j50818053046585_1_alg».proof.Proof.Spec

noncomputable section

namespace Cert.KernelIdeal.KValue

open Cert.KernelIdeal Cert.KernelIdeal.Gen Cert.KernelIdeal.KHost
open Idealize.ShloMosaic Idealize.ShloMosaic.TcCoe

/-- Equal arguments give equal layers. -/
theorem layerOut_congr {N : ℕ} {x x' h h' : (⟨2, ![N, 128]⟩ : Shape).Idx → EReal} {S S' T T' : (⟨2, ![128, 128]⟩ : Shape).Idx → EReal}
    {bs bs' bn bn' b b' : (⟨1, ![128]⟩ : Shape).Idx → EReal} (e1 : x = x') (e2 : h = h') (e3 : S = S') (e4 : T = T')
    (e5 : bs = bs') (e6 : bn = bn') (e7 : b = b') :
    Cert.Spec.layerOut x h S T bs bn b = Cert.Spec.layerOut x' h' S' T' bs' bn' b' := by
  subst e1 e2 e3 e4 e5 e6 e7; rfl

/-- Equal arguments give equal projections. -/
theorem linOut_congr {N : ℕ} {x x' : (⟨2, ![N, 128]⟩ : Shape).Idx → EReal} {T T' : (⟨2, ![128, 128]⟩ : Shape).Idx → EReal}
    {b b' : (⟨1, ![128]⟩ : Shape).Idx → EReal} (e1 : x = x') (e2 : T = T') (e3 : b = b') :
    Cert.Spec.linOut x T b = Cert.Spec.linOut x' T' b' := by
  subst e1 e2 e3; rfl

/-- The first layer. -/
def layer0 (a0 : FVec Ideal S50000x128 .f32) (a1 : IVec S2x1600000 32) (a2 : FVec Ideal S1600000 .f32)
    (a3 : FVec Ideal S2x128x128 .f32) (a4 : FVec Ideal S2x128 .f32) (a5 : FVec Ideal S2x128x128 .f32)
    (a6 a7 : FVec Ideal S2x128 .f32) : FVec Ideal S50000x128 .f32 :=
  Cert.Spec.layerOut a0 (neigh a0 (srcRow a1) (dstRow a1) a2 (recipCol (dstRow a1))) (wT0 a3) (wT0 a5) (bRow0 a4) (bRow0 a6) (bRow0 a7)

/-- The second layer, on features x. -/
def layer1 (x : FVec Ideal S50000x128 .f32) (a1 : IVec S2x1600000 32) (a2 : FVec Ideal S1600000 .f32)
    (a3 : FVec Ideal S2x128x128 .f32) (a4 : FVec Ideal S2x128 .f32) (a5 : FVec Ideal S2x128x128 .f32)
    (a6 a7 : FVec Ideal S2x128 .f32) : FVec Ideal S50000x128 .f32 :=
  Cert.Spec.layerOut x (neigh x (srcRow a1) (dstRow a1) a2 (recipCol (dstRow a1))) (wT1 a3) (wT1 a5) (bRow1 a4) (bRow1 a6) (bRow1 a7)

/-- The whole network. -/
def value (a0 : FVec Ideal S50000x128 .f32) (a1 : IVec S2x1600000 32) (a2 : FVec Ideal S1600000 .f32)
    (a3 : FVec Ideal S2x128x128 .f32) (a4 : FVec Ideal S2x128 .f32) (a5 : FVec Ideal S2x128x128 .f32)
    (a6 a7 : FVec Ideal S2x128 .f32) (a8 : FVec Ideal S128x128 .f32) (a9 : FVec Ideal S128 .f32) : FVec Ideal S50000x128 .f32 :=
  Cert.Spec.linOut (layer1 (layer0 a0 a1 a2 a3 a4 a5 a6 a7) a1 a2 a3 a4 a5 a6 a7)
    (transpose S128x128 [1, 0] a8 transposes_S128x128_S128x128_1_0) a9

end Cert.KernelIdeal.KValue

end
-- ==== Proof.KernelValue.lean ====
/-
  The idealized kernel's result buffer holds the network's value of the launch arguments.

  Each region's output array is the region's whole-array function of the arrays it finds; each of those is an argument,
  a host stretch's value, or the previous region's output.  Folding the three regions gives the result buffer.
-/
import proofs.«123143_j50818053046585_1_alg».proof.Proof.KernelFold
import proofs.«123143_j50818053046585_1_alg».proof.Proof.RegionValue
import proofs.«123143_j50818053046585_1_alg».proof.Proof.KernelNet

set_option maxRecDepth 16384

noncomputable section

namespace Cert.KernelIdeal.KValue

open Cert.KernelIdeal Cert.KernelIdeal.Gen Cert.KernelIdeal.KHost Cert.KernelIdeal.KFold Cert.KernelIdeal.RegionValue
open Idealize.ShloMosaic Idealize.ShloMosaic.TcCoe Idealize.ShloMosaic.StableHlo

variable (m : (ℓ : Loc nD τ sig) → Buf (Elt Ideal) ℓ) (ρ : Dev nD → PrngReg) (c : Dev nD)

/-- The first region's output array. -/
theorem x1_value : W2 m ρ c (Proc.devRef .tc main_v41)
    = layer0 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W2_arr m ρ c 7).trans ((region0_value (V1 m ρ) c).trans
    (layerOut_congr (e1_arg0 m ρ c) (e1_v28 m ρ c) (e1_v31 m ρ c) (e1_v34 m ρ c) (e1_v36 m ρ c) (e1_v38 m ρ c) (e1_v40 m ρ c)))

/-- The second region's output array. -/
theorem x2_value : W4 m ρ c (Proc.devRef .tc main_v70)
    = layer1 (layer0 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)))
        (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) :=
  (W4_arr m ρ c 7).trans ((region1_value (V3 m ρ) c).trans
    (layerOut_congr ((e3_v41 m ρ c).trans (x1_value m ρ c))
      ((e3_v57 m ρ c).trans (congrArg (fun X => neigh X (srcRow (m ((c : Thread nD τ).loc main_arg1))) (dstRow (m ((c : Thread nD τ).loc main_arg1)))
        (m ((c : Thread nD τ).loc main_arg2)) (recipCol (dstRow (m ((c : Thread nD τ).loc main_arg1))))) (x1_value m ρ c)))
      (e3_v60 m ρ c) (e3_v63 m ρ c) (e3_v65 m ρ c) (e3_v67 m ρ c) (e3_v69 m ρ c)))

/-- The result buffer after the run's fold. -/
theorem result_value : W6 m ρ c (Proc.devRef .tc main_v72)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) :=
  (W6_arr m ρ c 3).trans ((region2_value (V5 m ρ) c).trans
    (linOut_congr ((e5_v70 m ρ c).trans (x2_value m ρ c)) (e5_v71 m ρ c) (e5_arg9 m ρ c)))

end Cert.KernelIdeal.KValue

end
-- ==== Proof.RecipLaw.lean ====
/-
  Multiplying by the reciprocal of the in-degree count is dividing by the count.

  The count of a node is a scatter-sum of ones over the edges that point at it, started from zero, plus one for the
  node itself: a natural number plus one, read as a real, and so never zero.  One over such a count is its real
  reciprocal, and a product with that reciprocal is the quotient by the count for every extended real, the two
  infinities included.  The count is a column [N]; both sides stretch it along the 128 feature columns first, so
  the law is stated for the stretched arrays and proved entry by entry.
-/
import proofs.«123143_j50818053046585_1_alg».proof.KernelIdeal
import proofs.«123143_j50818053046585_1_alg».proof.Proof.Spec
import Idealize.ShloMosaic.Lib.Pipeline.Value
import Idealize.ShloMosaic.Lib.IdealHost

noncomputable section

namespace Cert.KernelIdeal.RecipLaw

open Cert.KernelIdeal Idealize.ShloMosaic Idealize.ShloMosaic.ValueIdx

/-! ## Over any shapes -/

/-- A scatter-sum at an entry: the operand's entry plus the updates that land there. -/
theorem scatterAdd_apply {s si su : Shape} {φ : FTy} {w : ℕ} (d : ScatterDims s si su) (x : FVec Ideal s φ) (idx : IVec si w)
    (u : FVec Ideal su φ) (n : s.Idx) :
    Host.scatterAdd d x idx u n = x n + ∑ j ∈ Finset.univ.filter (fun j => d.resultIdx? j idx = some n), u j := rfl

/-- Zero, plus a one for each member of a finite set, plus one, is a nonzero real. -/
theorem count_form {ι : Type} (s : Finset ι) :
    ∃ c : ℝ, c ≠ 0 ∧ (0 + ∑ _j ∈ s, ((1 : ℝ) : EReal)) + ((1 : ℝ) : EReal) = (c : EReal) :=
  ⟨(s.card : ℝ) * 1 + 1, by positivity, by rw [zero_add, Cert.Spec.sum_const_real, ← EReal.coe_add]⟩

/-- A scatter-sum of ones into zeros, plus ones, is at every entry a nonzero real. -/
theorem count_generic {s si su : Shape} {φ : FTy} {w : ℕ} (d : ScatterDims s si su) (zs o5 : FVec Ideal s φ) (idx : IVec si w)
    (os : FVec Ideal su φ) (hz : ∀ n, zs n = 0) (ho : ∀ j, os j = ((1 : ℝ) : EReal)) (h5 : ∀ n, o5 n = ((1 : ℝ) : EReal))
    (n : s.Idx) : ∃ c : ℝ, c ≠ 0 ∧ addf (Host.scatterAdd d zs idx os) o5 n = (c : EReal) := by
  obtain ⟨c, hc, e⟩ := count_form (Finset.univ.filter (fun j => d.resultIdx? j idx = some n))
  refine ⟨c, hc, ?_⟩
  rw [addf_apply, scatterAdd_apply, hz, h5, Finset.sum_congr rfl (fun j _ => ho j)]
  exact e

/-! ## At the program's shapes -/

variable [Facts₀]
open Facts₀

/-- The zero column reads zero. -/
theorem zeros5_apply (n : S50000.Idx) :
    broadcastInDim S50000 ![] bcast_S_S50000 (constant (F := Ideal) S_ .f32 0x00000000#32) n = 0 :=
  (broadcastInDim_scalar_apply _ _ n).trans ((constant_apply _ _).trans Ideal.ofBits_zero_f32)

/-- The column of ones reads the real one. -/
theorem ones5_apply (n : S50000.Idx) :
    broadcastInDim S50000 ![] bcast_S_S50000 (constant (F := Ideal) S_ .f32 0x3F800000#32) n = ((1 : ℝ) : EReal) :=
  (broadcastInDim_scalar_apply _ _ n).trans ((constant_apply _ _).trans (Ideal.ofBits_one_f32.trans EReal.coe_one.symm))

/-- The per-edge ones read the real one. -/
theorem onesE_apply (j : S1600000.Idx) :
    broadcastInDim S1600000 ![] bcast_S_S1600000 (constant (F := Ideal) S_ .f32 0x3F800000#32) j = ((1 : ℝ) : EReal) :=
  (broadcastInDim_scalar_apply _ _ j).trans ((constant_apply _ _).trans (Ideal.ofBits_one_f32.trans EReal.coe_one.symm))

/-- A column [N] stretched to [N, 1] and then to [N, 128] reads, at (p, q), the column at p. -/
theorem stretch_apply {α : Type} (v : S50000.Idx → α) (p : Fin 50000) (q : Fin 128) :
    broadcastInDim S50000x128 ![0, 1] bcast_S50000x1_S50000x128_0_1
      (broadcastInDim S50000x1 ![0] bcast_S50000_S50000x1_0 v) (ix2 p q) = v (ix1 p) := by
  rw [broadcastInDim_apply _ bcast_S50000x1_S50000x128_0_1 _ (ix2 p q) (ix2 p (0 : Fin 1)) (fun a => match a with
    | ⟨0, _⟩ => by show p.val = if (50000 : Nat) = 1 then 0 else p.val; rw [if_neg (by decide)]
    | ⟨1, _⟩ => by show 0 = if (1 : Nat) = 1 then 0 else q.val; rw [if_pos rfl])]
  exact broadcastInDim_apply _ bcast_S50000_S50000x1_0 v (ix2 p (0 : Fin 1)) (ix1 p) (fun a => match a with
    | ⟨0, _⟩ => by show p.val = if (50000 : Nat) = 1 then 0 else p.val; rw [if_neg (by decide)])

/-- The count at a node is a nonzero real: zero, plus one for every edge landing there, plus one. -/
theorem count_real (idx : IVec S1600000x1 32) (n : S50000.Idx) :
    ∃ c : ℝ, c ≠ 0 ∧
      addf (Host.scatterAdd scatter_S50000_S1600000x1_S1600000_n_0_0_1
          (broadcastInDim S50000 ![] bcast_S_S50000 (constant (F := Ideal) S_ .f32 0x00000000#32)) idx
          (broadcastInDim S1600000 ![] bcast_S_S1600000 (constant (F := Ideal) S_ .f32 0x3F800000#32)))
        (broadcastInDim S50000 ![] bcast_S_S50000 (constant (F := Ideal) S_ .f32 0x3F800000#32)) n = (c : EReal) :=
  count_generic _ _ _ idx _ zeros5_apply onesE_apply ones5_apply n

/-- A product with the stretched reciprocal of the count is the quotient by the stretched count. -/
theorem mul_recip (A : FVec Ideal S50000x128 .f32) (idx : IVec S1600000x1 32) :
    mulf A (broadcastInDim S50000x128 ![0, 1] bcast_S50000x1_S50000x128_0_1
        (broadcastInDim S50000x1 ![0] bcast_S50000_S50000x1_0
          (Host.divf (broadcastInDim S50000 ![] bcast_S_S50000 (constant (F := Ideal) S_ .f32 0x3F800000#32))
            (addf (Host.scatterAdd scatter_S50000_S1600000x1_S1600000_n_0_0_1
                (broadcastInDim S50000 ![] bcast_S_S50000 (constant (F := Ideal) S_ .f32 0x00000000#32)) idx
                (broadcastInDim S1600000 ![] bcast_S_S1600000 (constant (F := Ideal) S_ .f32 0x3F800000#32)))
              (broadcastInDim S50000 ![] bcast_S_S50000 (constant (F := Ideal) S_ .f32 0x3F800000#32))))))
      = Host.divf A (broadcastInDim S50000x128 ![0, 1] bcast_S50000x1_S50000x128_0_1
        (broadcastInDim S50000x1 ![0] bcast_S50000_S50000x1_0
          (addf (Host.scatterAdd scatter_S50000_S1600000x1_S1600000_n_0_0_1
              (broadcastInDim S50000 ![] bcast_S_S50000 (constant (F := Ideal) S_ .f32 0x00000000#32)) idx
              (broadcastInDim S1600000 ![] bcast_S_S1600000 (constant (F := Ideal) S_ .f32 0x3F800000#32)))
            (broadcastInDim S50000 ![] bcast_S_S50000 (constant (F := Ideal) S_ .f32 0x3F800000#32))))) := by
  funext j
  obtain ⟨p, q, rfl⟩ : ∃ (p : Fin 50000) (q : Fin 128), j = ix2 p q := ⟨j 0, j 1, eq_ix2 j⟩
  rw [mulf_apply, hostDivf_apply, stretch_apply, stretch_apply, hostDivf_apply]
  obtain ⟨c, hc, e⟩ := count_real idx (ix1 p)
  rw [e]
  exact Cert.Spec.mul_recip_eq_div _ hc _ (ones5_apply (ix1 p))

end Cert.KernelIdeal.RecipLaw

end
-- ==== Proof.KernelNeigh.lean ====
/-
  The neighbour features as a quotient.  The kernel program multiplies the aggregate by the reciprocal of the count,
  spread over the features; since every count is a natural number plus one, a nonzero real, that product is the quotient
  of the aggregate by the count spread the same way, on every extended real.
-/
import proofs.«123143_j50818053046585_1_alg».proof.Proof.KernelHost
import proofs.«123143_j50818053046585_1_alg».proof.Proof.RecipLaw

noncomputable section

namespace Cert.KernelIdeal.KHost

open Cert.KernelIdeal Cert.KernelIdeal.Gen
open Idealize.ShloMosaic Idealize.ShloMosaic.TcCoe

/-- The aggregate divided by the count, the count spread over the features. -/
def neighDiv (x : FVec Ideal S50000x128 .f32) (s d : IVec S1600000 32) (w : FVec Ideal S1600000 .f32) : FVec Ideal S50000x128 .f32 :=
  Host.divf (agg x s d w) (broadcastInDim S50000x128 ![0, 1] bcast_S50000x1_S50000x128_0_1
    (broadcastInDim S50000x1 ![0] bcast_S50000_S50000x1_0 (cnt d)))

theorem neigh_eq_div (x : FVec Ideal S50000x128 .f32) (s d : IVec S1600000 32) (w : FVec Ideal S1600000 .f32) :
    neigh x s d w (recipCol d) = neighDiv x s d w := by
  unfold neigh recipCol neighDiv cnt
  exact Cert.KernelIdeal.RecipLaw.mul_recip _ _

end Cert.KernelIdeal.KHost

end
-- ==== Proof.RefSide.lean ====
/-
  The reference program's result is the specification's functions composed.

  Each graph layer of the reference is the leaky rectifier of a five-term sum: the features times one weight matrix,
  a bias row, the neighbour features times a second weight matrix, and two more bias rows.  Read at the entry (p, q),
  a product with a [128, 128] matrix is the sum over k of the (p, k) entry times the (k, q) entry, and a bias row
  [128] stretched over the rows reads its q-th entry; so a layer is `Spec.layerOut` of its operands, and the closing
  projection is `Spec.linOut`.  The neighbour features (a scatter-sum of gathered rows plus the node's own row,
  divided by the in-degree count plus one) stay as the program spells them: `neigh`, over the count `cnt`.
-/
import proofs.«123143_j50818053046585_1_alg».proof.Proof.Gen.ReferenceIdeal.Run
import proofs.«123143_j50818053046585_1_alg».proof.Proof.Gen.ReferenceIdeal.Read
import proofs.«123143_j50818053046585_1_alg».proof.Proof.Spec
import proofs.«123143_j50818053046585_1_alg».proof.Proof.LibMatmulIx
import Idealize.ShloMosaic.Lib.Pipeline.Value
import Idealize.ShloMosaic.Lib.IdealHost

noncomputable section

namespace Cert.ReferenceIdeal.RefValue

open Cert.ReferenceIdeal Cert.ReferenceIdeal.Gen Idealize.ShloMosaic Idealize.ShloMosaic.ValueIdx

/-! ## The pieces at an entry -/

/-- A bias row [128] stretched to [1, 128] and then to [N, 128] reads, at (p, q), the row at q. -/
theorem bias_apply {α : Type} (v : S128.Idx → α) (p : Fin 50000) (q : Fin 128) :
    broadcastInDim S50000x128 ![0, 1] bcast_S1x128_S50000x128_0_1 (broadcastInDim S1x128 ![1] bcast_S128_S1x128_1 v) (ix2 p q)
      = v (ix1 q) := by
  rw [broadcastInDim_apply _ bcast_S1x128_S50000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  exact broadcastInDim_apply _ bcast_S128_S1x128_1 v (ix2 (0 : Fin 1) q) (ix1 q) (fun a => match a with
    | ⟨0, _⟩ => by show q.val = if (128 : Nat) = 1 then 0 else q.val; rw [if_neg (by decide)])

/-- A product of [N, 128] features with a [128, 128] matrix, at (p, q): row p of the features against column q. -/
theorem dot_apply (x : FVec Ideal S50000x128 .f32) (w : FVec Ideal S128x128 .f32) (p : Fin 50000) (q : Fin 128) :
    Host.dotGeneral dot_S50000x128_S128x128_S50000x128_1_0_0_1_n_n none x w (ix2 p q)
      = ∑ k : Fin 128, x (ix2 p k) * w (ix2 k q) :=
  MatmulIx.dotGeneral_ix2 dot_S50000x128_S128x128_S50000x128_1_0_0_1_n_n rfl rfl Read.lhs_main_v38_0 Read.lhs_main_v38_1
    Read.rhs_main_v38_0 Read.rhs_main_v38_1 none x w p q

/-- A scalar word spread over [N, 128] reads that word's value everywhere. -/
theorem splat_apply (b : BitVec FTy.f32.bits) (i : S50000x128.Idx) :
    broadcastInDim S50000x128 ![] bcast_S_S50000x128 (constant (F := Ideal) S_ .f32 b) i = Ideal.ofBits .f32 b :=
  (broadcastInDim_scalar_apply _ _ i).trans (constant_apply _ _)

/-- The rectifier as the program spells it, at an entry, is the specification's. -/
theorem leaky_apply (V : FVec Ideal S50000x128 .f32) (i : S50000x128.Idx) :
    select (cmpf .ogt V (broadcastInDim S50000x128 ![] bcast_S_S50000x128 (constant (F := Ideal) S_ .f32 0x00000000#32))) V (mulf (broadcastInDim S50000x128 ![] bcast_S_S50000x128 (constant (F := Ideal) S_ .f32 0x3E4CCCCD#32)) V) i = Cert.Spec.leaky (V i) := by
  rw [select_apply, cmpf_apply, mulf_apply, splat_apply, splat_apply]
  rfl

/-! ## A layer and the projection -/

/-- One layer of the reference is the specification's layer of its operands. -/
theorem layer_eq (x h : FVec Ideal S50000x128 .f32) (S T : FVec Ideal S128x128 .f32) (bs bn b : FVec Ideal S128 .f32) :
    select (cmpf .ogt (addf (addf (addf (addf (Host.dotGeneral dot_S50000x128_S128x128_S50000x128_1_0_0_1_n_n none x S) (broadcastInDim S50000x128 ![0, 1] bcast_S1x128_S50000x128_0_1 (broadcastInDim S1x128 ![1] bcast_S128_S1x128_1 bs))) (Host.dotGeneral dot_S50000x128_S128x128_S50000x128_1_0_0_1_n_n none h T)) (broadcastInDim S50000x128 ![0, 1] bcast_S1x128_S50000x128_0_1 (broadcastInDim S1x128 ![1] bcast_S128_S1x128_1 bn))) (broadcastInDim S50000x128 ![0, 1] bcast_S1x128_S50000x128_0_1 (broadcastInDim S1x128 ![1] bcast_S128_S1x128_1 b))) (broadcastInDim S50000x128 ![] bcast_S_S50000x128 (constant (F := Ideal) S_ .f32 0x00000000#32))) (addf (addf (addf (addf (Host.dotGeneral dot_S50000x128_S128x128_S50000x128_1_0_0_1_n_n none x S) (broadcastInDim S50000x128 ![0, 1] bcast_S1x128_S50000x128_0_1 (broadcastInDim S1x128 ![1] bcast_S128_S1x128_1 bs))) (Host.dotGeneral dot_S50000x128_S128x128_S50000x128_1_0_0_1_n_n none h T)) (broadcastInDim S50000x128 ![0, 1] bcast_S1x128_S50000x128_0_1 (broadcastInDim S1x128 ![1] bcast_S128_S1x128_1 bn))) (broadcastInDim S50000x128 ![0, 1] bcast_S1x128_S50000x128_0_1 (broadcastInDim S1x128 ![1] bcast_S128_S1x128_1 b))) (mulf (broadcastInDim S50000x128 ![] bcast_S_S50000x128 (constant (F := Ideal) S_ .f32 0x3E4CCCCD#32)) (addf (addf (addf (addf (Host.dotGeneral dot_S50000x128_S128x128_S50000x128_1_0_0_1_n_n none x S) (broadcastInDim S50000x128 ![0, 1] bcast_S1x128_S50000x128_0_1 (broadcastInDim S1x128 ![1] bcast_S128_S1x128_1 bs))) (Host.dotGeneral dot_S50000x128_S128x128_S50000x128_1_0_0_1_n_n none h T)) (broadcastInDim S50000x128 ![0, 1] bcast_S1x128_S50000x128_0_1 (broadcastInDim S1x128 ![1] bcast_S128_S1x128_1 bn))) (broadcastInDim S50000x128 ![0, 1] bcast_S1x128_S50000x128_0_1 (broadcastInDim S1x128 ![1] bcast_S128_S1x128_1 b))))
      = Cert.Spec.layerOut x h S T bs bn b := by
  funext i
  obtain ⟨p, q, rfl⟩ : ∃ (p : Fin 50000) (q : Fin 128), i = ix2 p q := ⟨i 0, i 1, eq_ix2 i⟩
  rw [leaky_apply]
  refine congrArg Cert.Spec.leaky ?_
  rw [addf_apply, addf_apply, addf_apply, addf_apply, dot_apply, dot_apply, bias_apply, bias_apply, bias_apply]

/-- The closing projection of the reference is the specification's. -/
theorem lin_eq (x : FVec Ideal S50000x128 .f32) (T : FVec Ideal S128x128 .f32) (b : FVec Ideal S128 .f32) :
    addf (Host.dotGeneral dot_S50000x128_S128x128_S50000x128_1_0_0_1_n_n none x T) (broadcastInDim S50000x128 ![0, 1] bcast_S1x128_S50000x128_0_1 (broadcastInDim S1x128 ![1] bcast_S128_S1x128_1 b)) = Cert.Spec.linOut x T b := by
  funext i
  obtain ⟨p, q, rfl⟩ : ∃ (p : Fin 50000) (q : Fin 128), i = ix2 p q := ⟨i 0, i 1, eq_ix2 i⟩
  rw [addf_apply, dot_apply, bias_apply]
  rfl

/-! ## The whole program -/

/-- The in-degree count plus one, as the program spells it: ones scattered to the edges' targets, plus ones. -/
def cnt (e : (⟨S2x1600000, .i32⟩ : BufTy).Contents (Elt Ideal)) : FVec Ideal S50000 .f32 :=
  addf (Host.scatterAdd scatter_S50000_S1600000x1_S1600000_n_0_0_1 (broadcastInDim S50000 ![] bcast_S_S50000 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (broadcastInDim S1600000 ![] bcast_S_S1600000 (constant (F := Ideal) S_ .f32 0x3F800000#32))) (broadcastInDim S50000 ![] bcast_S_S50000 (constant (F := Ideal) S_ .f32 0x3F800000#32))

/-- The neighbour features, as the program spells them: the gathered source rows times the edge weights scattered to the
    targets, plus the node's own row, divided by the stretched count. -/
def neigh (x : FVec Ideal S50000x128 .f32) (e : (⟨S2x1600000, .i32⟩ : BufTy).Contents (Elt Ideal)) (w : FVec Ideal S1600000 .f32) : FVec Ideal S50000x128 .f32 :=
  Host.divf (addf (Host.scatterAdd scatter_S50000x128_S1600000x1_S1600000x128_1_0_0_1 (broadcastInDim S50000x128 ![] bcast_S_S50000x128 (constant (F := Ideal) S_ .f32 0x00000000#32)) (broadcastInDim S1600000x1 ![0] bcast_S1600000_S1600000x1_0 (shapeCast _ (extractStridedSlice S1x1600000 ![1, 0] e slices_S2x1600000_S1x1600000_1_0) shapeCasts_S1x1600000_S1600000)) (mulf (Host.gather gather_S50000x128_S1600000x1_S1600000x128_1_0_n_n_0_1_1128 x (broadcastInDim S1600000x1 ![0] bcast_S1600000_S1600000x1_0 (select (cmpi .slt (shapeCast _ (extractStridedSlice S1x1600000 ![0, 0] e slices_S2x1600000_S1x1600000_0_0) shapeCasts_S1x1600000_S1600000) (broadcastInDim S1600000 ![] bcast_S_S1600000 (constantI S_ 32 0#32))) (addi (shapeCast _ (extractStridedSlice S1x1600000 ![0, 0] e slices_S2x1600000_S1x1600000_0_0) shapeCasts_S1x1600000_S1600000) (broadcastInDim S1600000 ![] bcast_S_S1600000 (constantI S_ 32 50000#32))) (shapeCast _ (extractStridedSlice S1x1600000 ![0, 0] e slices_S2x1600000_S1x1600000_0_0) shapeCasts_S1x1600000_S1600000)))) (broadcastInDim S1600000x128 ![0, 1] bcast_S1600000x1_S1600000x128_0_1 (broadcastInDim S1600000x1 ![0] bcast_S1600000_S1600000x1_0 w)))) x) (broadcastInDim S50000x128 ![0, 1] bcast_S50000x1_S50000x128_0_1 (broadcastInDim S50000x1 ![0] bcast_S50000_S50000x1_0 (cnt e)))

/-- The reference's result: the projection of the second layer of the first layer of the input features, each layer over
    the neighbour features of its own input. -/
theorem res_eq (m : (ℓ : Loc nD τ sig) → Buf (Elt Ideal) ℓ) (c : Dev nD) :
    Value.res_main_v112 (F := Ideal) m c =
      Cert.Spec.linOut (N := 50000) (Cert.Spec.layerOut (N := 50000) (Cert.Spec.layerOut (N := 50000) (m ((c.tc : Thread nD τ).loc main_arg0)) (neigh (m ((c.tc : Thread nD τ).loc main_arg0)) (m ((c.tc : Thread nD τ).loc main_arg1)) (m ((c.tc : Thread nD τ).loc main_arg2))) (transpose S128x128 [1, 0] (shapeCast _ (extractStridedSlice S1x128x128 ![0, 0, 0] (m ((c.tc : Thread nD τ).loc main_arg3)) slices_S2x128x128_S1x128x128_0_0_0) shapeCasts_S1x128x128_S128x128) transposes_S128x128_S128x128_1_0) (transpose S128x128 [1, 0] (shapeCast _ (extractStridedSlice S1x128x128 ![0, 0, 0] (m ((c.tc : Thread nD τ).loc main_arg5)) slices_S2x128x128_S1x128x128_0_0_0) shapeCasts_S1x128x128_S128x128) transposes_S128x128_S128x128_1_0) (shapeCast _ (extractStridedSlice S1x128 ![0, 0] (m ((c.tc : Thread nD τ).loc main_arg4)) slices_S2x128_S1x128_0_0) shapeCasts_S1x128_S128) (shapeCast _ (extractStridedSlice S1x128 ![0, 0] (m ((c.tc : Thread nD τ).loc main_arg6)) slices_S2x128_S1x128_0_0) shapeCasts_S1x128_S128) (shapeCast _ (extractStridedSlice S1x128 ![0, 0] (m ((c.tc : Thread nD τ).loc main_arg7)) slices_S2x128_S1x128_0_0) shapeCasts_S1x128_S128)) (neigh (Cert.Spec.layerOut (N := 50000) (m ((c.tc : Thread nD τ).loc main_arg0)) (neigh (m ((c.tc : Thread nD τ).loc main_arg0)) (m ((c.tc : Thread nD τ).loc main_arg1)) (m ((c.tc : Thread nD τ).loc main_arg2))) (transpose S128x128 [1, 0] (shapeCast _ (extractStridedSlice S1x128x128 ![0, 0, 0] (m ((c.tc : Thread nD τ).loc main_arg3)) slices_S2x128x128_S1x128x128_0_0_0) shapeCasts_S1x128x128_S128x128) transposes_S128x128_S128x128_1_0) (transpose S128x128 [1, 0] (shapeCast _ (extractStridedSlice S1x128x128 ![0, 0, 0] (m ((c.tc : Thread nD τ).loc main_arg5)) slices_S2x128x128_S1x128x128_0_0_0) shapeCasts_S1x128x128_S128x128) transposes_S128x128_S128x128_1_0) (shapeCast _ (extractStridedSlice S1x128 ![0, 0] (m ((c.tc : Thread nD τ).loc main_arg4)) slices_S2x128_S1x128_0_0) shapeCasts_S1x128_S128) (shapeCast _ (extractStridedSlice S1x128 ![0, 0] (m ((c.tc : Thread nD τ).loc main_arg6)) slices_S2x128_S1x128_0_0) shapeCasts_S1x128_S128) (shapeCast _ (extractStridedSlice S1x128 ![0, 0] (m ((c.tc : Thread nD τ).loc main_arg7)) slices_S2x128_S1x128_0_0) shapeCasts_S1x128_S128)) (m ((c.tc : Thread nD τ).loc main_arg1)) (m ((c.tc : Thread nD τ).loc main_arg2))) (transpose S128x128 [1, 0] (shapeCast _ (extractStridedSlice S1x128x128 ![1, 0, 0] (m ((c.tc : Thread nD τ).loc main_arg3)) slices_S2x128x128_S1x128x128_1_0_0) shapeCasts_S1x128x128_S128x128) transposes_S128x128_S128x128_1_0) (transpose S128x128 [1, 0] (shapeCast _ (extractStridedSlice S1x128x128 ![1, 0, 0] (m ((c.tc : Thread nD τ).loc main_arg5)) slices_S2x128x128_S1x128x128_1_0_0) shapeCasts_S1x128x128_S128x128) transposes_S128x128_S128x128_1_0) (shapeCast _ (extractStridedSlice S1x128 ![1, 0] (m ((c.tc : Thread nD τ).loc main_arg4)) slices_S2x128_S1x128_1_0) shapeCasts_S1x128_S128) (shapeCast _ (extractStridedSlice S1x128 ![1, 0] (m ((c.tc : Thread nD τ).loc main_arg6)) slices_S2x128_S1x128_1_0) shapeCasts_S1x128_S128) (shapeCast _ (extractStridedSlice S1x128 ![1, 0] (m ((c.tc : Thread nD τ).loc main_arg7)) slices_S2x128_S1x128_1_0) shapeCasts_S1x128_S128)) (transpose S128x128 [1, 0] (m ((c.tc : Thread nD τ).loc main_arg8)) transposes_S128x128_S128x128_1_0) (m ((c.tc : Thread nD τ).loc main_arg9)) := by
  unfold Value.res_main_v112 neigh cnt
  rw [lin_eq, layer_eq, layer_eq]

end Cert.ReferenceIdeal.RefValue

end
-- ==== Proof.Bridge.lean ====
/-
  The reference program computes the same network.

  Its result is, layer by layer, the specification's dense layer of the current features and their neighbour features,
  the neighbour features being the aggregate DIVIDED by the count; the kernel program's network multiplies by the
  count's reciprocal instead, which is the same quotient.  Everything else — the rows of the edge list, the gather, the
  two scatter-sums, the slices and transposes of the parameters — is the same operation on both sides.
-/
import proofs.«123143_j50818053046585_1_alg».proof.Proof.KernelNet
import proofs.«123143_j50818053046585_1_alg».proof.Proof.KernelNeigh
import proofs.«123143_j50818053046585_1_alg».proof.Proof.RefSide

set_option maxRecDepth 16384

noncomputable section

namespace Cert.Proof.Bridge

open Idealize.ShloMosaic Idealize.ShloMosaic.TcCoe
open Cert.KernelIdeal.KHost Cert.KernelIdeal.KValue

/-- The reference's result term is the network's value of the reference's own arguments. -/
theorem ref_value (m' : (ℓ : Loc Cert.ReferenceIdeal.nD Cert.ReferenceIdeal.τ Cert.ReferenceIdeal.sig) → Buf (Elt Ideal) ℓ)
    (c : Dev Cert.ReferenceIdeal.nD) :
    Cert.ReferenceIdeal.Value.res_main_v112 (F := Ideal) m' c
      = value (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7))
          (m' ((c.tc : Thread Cert.ReferenceIdeal.nD Cert.ReferenceIdeal.τ).loc Cert.ReferenceIdeal.main_arg8))
          (m' ((c.tc : Thread Cert.ReferenceIdeal.nD Cert.ReferenceIdeal.τ).loc Cert.ReferenceIdeal.main_arg9)) := by
  refine (Cert.ReferenceIdeal.RefValue.res_eq m' c).trans ?_
  unfold value layer1 layer0
  rw [neigh_eq_div, neigh_eq_div]
  rfl

end Cert.Proof.Bridge

end
-- ==== Proof.lean ====
/-
  A two-layer graph network with a closing projection, N = 50000 nodes, 128 features, E = 1600000 weighted edges.

  Per layer, with x the current features: every edge (s → d, weight w) sends x[s]·w to d; a node's aggregate is the sum of
  what it receives plus its own features; the neighbour features are the aggregate averaged by the in-degree plus one;
  the layer's output is the leaky rectifier of  x·W_selfᵀ + b_self + neigh·W_neighᵀ + b_neigh + bias.  The result is the
  second layer's output times W_aggᵀ plus b_agg.

  The kernel program computes the dense part of each layer and the projection block by block over the nodes (ten blocks of
  5000 rows; every output row depends on its own input row only, so the blocks are the restrictions of one whole-array
  function), and averages by MULTIPLYING with the reciprocal of the count; the reference divides by the count.  The count
  is a natural number plus one, a nonzero real, so the product with its reciprocal is the quotient on every extended
  real — no finiteness of the inputs is needed.  The products are sums over the same 128 terms in the same order on
  both sides, the five summands are added in the same order, and a change of float format is the identity.

  The frames of the two kernel programs are the generated ones; the reference's frame is its run with the result dropped;
  the ideal pass rewrote nothing, so the idealization claim is trivial; the value claim is the kernel program's run with
  its result buffer named (KernelRun, KernelValue) against the reference's run (Bridge).
-/
import proofs.«123143_j50818053046585_1_alg».proof.Defs
import proofs.«123143_j50818053046585_1_alg».proof.Proof.Gen.Kernel
import proofs.«123143_j50818053046585_1_alg».proof.Proof.Gen.Kernel.Skeleton
import proofs.«123143_j50818053046585_1_alg».proof.Proof.Gen.Kernel.Launch
import proofs.«123143_j50818053046585_1_alg».proof.Proof.Gen.Kernel.Points
import proofs.«123143_j50818053046585_1_alg».proof.Proof.Gen.Kernel.Frame
import proofs.«123143_j50818053046585_1_alg».proof.Proof.Gen.KernelIdeal
import proofs.«123143_j50818053046585_1_alg».proof.Proof.Gen.KernelIdeal.Skeleton
import proofs.«123143_j50818053046585_1_alg».proof.Proof.Gen.KernelIdeal.Launch
import proofs.«123143_j50818053046585_1_alg».proof.Proof.Gen.KernelIdeal.Points
import proofs.«123143_j50818053046585_1_alg».proof.Proof.Gen.KernelIdeal.Frame
import proofs.«123143_j50818053046585_1_alg».proof.Proof.Gen.ReferenceIdeal
import proofs.«123143_j50818053046585_1_alg».proof.Proof.Gen.Pre_finite_inputs
import proofs.«123143_j50818053046585_1_alg».proof.Proof.Gen.ReferenceIdeal.Run
import proofs.«123143_j50818053046585_1_alg».proof.Proof.Gen.ReferenceIdeal.Read
import proofs.«123143_j50818053046585_1_alg».proof.Proof.KernelRun
import proofs.«123143_j50818053046585_1_alg».proof.Proof.KernelValue
import proofs.«123143_j50818053046585_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the network's value of the (agreeing) arguments in their result buffers. -/
theorem algebraic : Cert.algebraic_KernelIdeal_ReferenceIdeal := by
  intro m ρ m' ρ' _ hagree
  refine ⟨fun c => Cert.KernelIdeal.Gen.W6 m ρ c (Proc.devRef .tc Cert.KernelIdeal.main_v72), Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  refine (Cert.Proof.Bridge.ref_value m' c).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact (Cert.KernelIdeal.KValue.result_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
